-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1600000 : Shape := ⟨1, ![1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : FVec F S128x128 .f32) (main_arg2 : FVec F S128 .f32) (main_arg3 : FVec F S128x64 .f32) (main_arg4 : FVec F S64 .f32) (main_arg5 : IVec S1600000 32) (main_arg6 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg3
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg4 main_v13 main_v16
-- ==== Kernel.lean ====
abbrev S100000x128 : Shape := ⟨2, ![100000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S100000x64 : Shape := ⟨2, ![100000, 64]⟩
abbrev S5000x128 : Shape := ⟨2, ![5000, 128]⟩
abbrev S5000x1 : Shape := ⟨2, ![5000, 1]⟩
abbrev S5000x64 : Shape := ⟨2, ![5000, 64]⟩
abbrev S1600000x64 : Shape := ⟨2, ![1600000, 64]⟩
abbrev S1x64 : Shape := ⟨2, ![1, 64]⟩

abbrev nBuf : Space → Nat
  | .hbm => 48
  | .vmem => 16
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x64, .f32⟩
  | .hbm, ⟨4, _⟩ => ⟨S64, .f32⟩
  | .hbm, ⟨5, _⟩ => ⟨S1600000, .i32⟩
  | .hbm, ⟨6, _⟩ => ⟨S1600000, .i32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S100000x1, .f32⟩
  | .hbm, ⟨14, _⟩ => ⟨S100000x128, .bf16⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1600000x128, .bf16⟩
  | .hbm, ⟨24, _⟩ => ⟨S1600000x128, .f32⟩
  | .hbm, ⟨25, _⟩ => ⟨S_, .f32⟩
  | .hbm, ⟨26, _⟩ => ⟨S100000x128, .f32⟩
  | .hbm, ⟨27, _⟩ => ⟨S1600000x1, .i32⟩
  | .hbm, ⟨28, _⟩ => ⟨S100000x128, .f32⟩
  | .hbm, ⟨29, _⟩ => ⟨S1x128, .f32⟩
  | .hbm, ⟨30, _⟩ => ⟨S100000x64, .f32⟩
  | .hbm, ⟨31, _⟩ => ⟨S100000x64, .bf16⟩
  | .hbm, ⟨32, _⟩ => ⟨S_, .i32⟩
  | .hbm, ⟨33, _⟩ => ⟨S1600000, .i32⟩
  | .hbm, ⟨34, _⟩ => ⟨S1600000, .i1⟩
  | .hbm, ⟨35, _⟩ => ⟨S_, .i32⟩
  | .hbm, ⟨36, _⟩ => ⟨S1600000, .i32⟩
  | .hbm, ⟨37, _⟩ => ⟨S1600000, .i32⟩
  | .hbm, ⟨38, _⟩ => ⟨S1600000, .i32⟩
  | .hbm, ⟨39, _⟩ => ⟨S1600000x1, .i32⟩
  | .hbm, ⟨40, _⟩ => ⟨S1600000x64, .bf16⟩
  | .hbm, ⟨41, _⟩ => ⟨S1600000x64, .f32⟩
  | .hbm, ⟨42, _⟩ => ⟨S_, .f32⟩
  | .hbm, ⟨43, _⟩ => ⟨S100000x64, .f32⟩
  | .hbm, ⟨44, _⟩ => ⟨S1600000x1, .i32⟩
  | .hbm, ⟨45, _⟩ => ⟨S100000x64, .f32⟩
  | .hbm, ⟨46, _⟩ => ⟨S1x64, .f32⟩
  | .hbm, ⟨47, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S128x128, .f32⟩
  | .local _ .vmem, ⟨5, _⟩ => ⟨S1x128, .f32⟩
  | .local _ .vmem, ⟨6, _⟩ => ⟨S128x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x1, .f32⟩
  | .local _ .vmem, ⟨12, _⟩ => ⟨S5000x1, .f32⟩
  | .local _ .vmem, ⟨13, _⟩ => ⟨S1x64, .f32⟩
  | .local _ .vmem, ⟨14, _⟩ => ⟨S5000x64, .f32⟩
  | .local _ .vmem, ⟨15, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c : Ref sig .tc := ⟨.hbm, 15, rfl⟩
abbrev main_v6 : Ref sig .tc := ⟨.hbm, 16, rfl⟩
abbrev main_v7 : Ref sig .tc := ⟨.hbm, 17, rfl⟩
abbrev main_c_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_3 : Ref sig .tc := ⟨.hbm, 32, rfl⟩
abbrev main_v20 : Ref sig .tc := ⟨.hbm, 33, rfl⟩
abbrev main_v21 : Ref sig .tc := ⟨.hbm, 34, rfl⟩
abbrev main_c_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_5 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bitsLt_bf16_f32 : FTy.bits .bf16 < FTy.bits .f32
  bcast_S_S100000x128 : S_.BroadcastsInDim S100000x128 (![] : Fin 0 → Fin S100000x128.rank)
  bcast_S128_S1x128_1 : S128.BroadcastsInDim S1x128 (![1] : Fin 1 → Fin S1x128.rank)
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S5000x1_S5000x128 : S5000x1.Broadcasts S5000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S_S100000x64 : S_.BroadcastsInDim S100000x64 (![] : Fin 0 → Fin S100000x64.rank)
  bcast_S64_S1x64_1 : S64.BroadcastsInDim S1x64 (![1] : Fin 1 → Fin S1x64.rank)
  shapeCasts_S5000x64_S5000x64 : S5000x64.ShapeCasts S5000x64
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x64.size a ≤ S128x64.size a
  hwx0_4 : ∀ i : grid0.Coords, EltTy.bits .f32 = 32 ∨ (Rect.block (s := S128x64) S128x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_v16) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v30) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v31) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v32) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S100000x64 : Shape := ⟨2, ![100000, 64]⟩
abbrev S1x64 : Shape := ⟨2, ![1, 64]⟩

abbrev nBuf : Space → Nat
  | .hbm => 68
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x64, .f32⟩
  | .hbm, ⟨4, _⟩ => ⟨S64, .f32⟩
  | .hbm, ⟨5, _⟩ => ⟨S1600000, .i32⟩
  | .hbm, ⟨6, _⟩ => ⟨S1600000, .i32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x128, .f32⟩
  | .hbm, ⟨16, _⟩ => ⟨S_, .f32⟩
  | .hbm, ⟨17, _⟩ => ⟨S100000x128, .f32⟩
  | .hbm, ⟨18, _⟩ => ⟨S1600000x1, .i32⟩
  | .hbm, ⟨19, _⟩ => ⟨S100000x128, .f32⟩
  | .hbm, ⟨20, _⟩ => ⟨S_, .f32⟩
  | .hbm, ⟨21, _⟩ => ⟨S1600000, .f32⟩
  | .hbm, ⟨22, _⟩ => ⟨S_, .f32⟩
  | .hbm, ⟨23, _⟩ => ⟨S100000, .f32⟩
  | .hbm, ⟨24, _⟩ => ⟨S1600000x1, .i32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S100000x128, .f32⟩
  | .hbm, ⟨31, _⟩ => ⟨S100000x128, .f32⟩
  | .hbm, ⟨32, _⟩ => ⟨S100000x128, .f32⟩
  | .hbm, ⟨33, _⟩ => ⟨S1x128, .f32⟩
  | .hbm, ⟨34, _⟩ => ⟨S100000x128, .f32⟩
  | .hbm, ⟨35, _⟩ => ⟨S100000x128, .f32⟩
  | .hbm, ⟨36, _⟩ => ⟨S_, .f32⟩
  | .hbm, ⟨37, _⟩ => ⟨S100000x128, .f32⟩
  | .hbm, ⟨38, _⟩ => ⟨S100000x128, .f32⟩
  | .hbm, ⟨39, _⟩ => ⟨S_, .i32⟩
  | .hbm, ⟨40, _⟩ => ⟨S1600000, .i32⟩
  | .hbm, ⟨41, _⟩ => ⟨S1600000, .i1⟩
  | .hbm, ⟨42, _⟩ => ⟨S_, .i32⟩
  | .hbm, ⟨43, _⟩ => ⟨S1600000, .i32⟩
  | .hbm, ⟨44, _⟩ => ⟨S1600000, .i32⟩
  | .hbm, ⟨45, _⟩ => ⟨S1600000, .i32⟩
  | .hbm, ⟨46, _⟩ => ⟨S1600000x1, .i32⟩
  | .hbm, ⟨47, _⟩ => ⟨S1600000x128, .f32⟩
  | .hbm, ⟨48, _⟩ => ⟨S_, .f32⟩
  | .hbm, ⟨49, _⟩ => ⟨S100000x128, .f32⟩
  | .hbm, ⟨50, _⟩ => ⟨S1600000x1, .i32⟩
  | .hbm, ⟨51, _⟩ => ⟨S100000x128, .f32⟩
  | .hbm, ⟨52, _⟩ => ⟨S_, .f32⟩
  | .hbm, ⟨53, _⟩ => ⟨S1600000, .f32⟩
  | .hbm, ⟨54, _⟩ => ⟨S_, .f32⟩
  | .hbm, ⟨55, _⟩ => ⟨S100000, .f32⟩
  | .hbm, ⟨56, _⟩ => ⟨S1600000x1, .i32⟩
  | .hbm, ⟨57, _⟩ => ⟨S100000, .f32⟩
  | .hbm, ⟨58, _⟩ => ⟨S_, .f32⟩
  | .hbm, ⟨59, _⟩ => ⟨S100000, .f32⟩
  | .hbm, ⟨60, _⟩ => ⟨S100000, .f32⟩
  | .hbm, ⟨61, _⟩ => ⟨S100000x1, .f32⟩
  | .hbm, ⟨62, _⟩ => ⟨S100000x128, .f32⟩
  | .hbm, ⟨63, _⟩ => ⟨S100000x128, .f32⟩
  | .hbm, ⟨64, _⟩ => ⟨S100000x64, .f32⟩
  | .hbm, ⟨65, _⟩ => ⟨S1x64, .f32⟩
  | .hbm, ⟨66, _⟩ => ⟨S100000x64, .f32⟩
  | .hbm, ⟨67, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_call0_cst : Ref sig .tc := ⟨.hbm, 36, rfl⟩
abbrev main_call0_v0 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_6 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_7 : Ref sig .tc := ⟨.hbm, 52, rfl⟩
abbrev main_v34 : Ref sig .tc := ⟨.hbm, 53, rfl⟩
abbrev main_cst_8 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_9 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.LibRowGatherScatter.lean ====
/-
  Rows taken by index and rows added by index, read at one element.

  For a table `x : [N, C]` and a column of integers `idx : [E, 1]`:

  * taking rows — the gather whose result `[E, C]` has in row `e` the row of `x` that `idx (e, 0)` names — reads at
    `(e, c)` the entry `x (r, c)`, where `r` is `idx (e, 0)` as a signed integer brought into `[0, N − 1]`;
  * adding rows — the scatter that adds row `e` of `u : [E, C]` onto the row of `x` that `idx (e, 0)` names, a row
    named outside `[0, N)` being dropped — has at `(n, c)`, over the extended reals, the entry `x (n, c)` plus the sum
    of `u (e, c)` over exactly those `e` whose integer `idx (e, 0)` is `n`.

  The columns never mix: entry `(·, c)` of either result depends on column `c` only.
-/
import Idealize.ShloMosaic.Lib.ValueIdx
import Idealize.ShloMosaic.PureOps.Ideal.Laws

noncomputable section

open scoped BigOperators

namespace Cert.RowGatherScatter

open Idealize.ShloMosaic Idealize.ShloMosaic.ValueIdx

/-! ## Taking rows -/

section Gather
variable {α : Type}

/-- The dimension numbers of "take the rows `idx` of an `[N, C]` table": the row axis collapsed and indexed, the
    column axis carried whole. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row that entry `e` of the index column names: its integer read signed and brought into `[0, N − 1]`. -/
def rowOf {N E w : Nat} (hN : 0 < N) (idx : IVec ⟨2, ![E, 1]⟩ w) (e : Fin E) : Fin N :=
  ⟨min (idx (ix2 e 0)).toInt.toNat (N - 1), by omega⟩

/-- THE ROWS TAKEN, READ AT `(e, c)`: the table at the named row and the same column. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGatherDims N E C wf) x idx (ix2 e c) = x (ix2 (rowOf hN idx e) c) := by
  unfold Host.gather
  refine congrArg x ?_
  funext a
  refine Fin.ext ?_
  match a with
  | ⟨0, _⟩ =>
    show (rowGatherDims N E C wf).start (ix2 e c) idx 0 + (rowGatherDims N E C wf).batchCoord (ix2 e c) 0
        + (rowGatherDims N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e c) ⟨List.idxOf (0 : Fin 2) (rowGatherDims N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGatherDims N E C wf).start (ix2 e c) idx 1 + (rowGatherDims N E C wf).batchCoord (ix2 e c) 1
        + (rowGatherDims N E C wf).offCoord (ix2 e c) 1 = _
    rw [GatherDims.batchCoord_eq_zero _ _ _ List.not_mem_nil]
    unfold GatherDims.start
    rw [dif_neg (show (1 : Fin 2) ∉ (rowGatherDims N E C wf).startIndexMap from (by decide : (1 : Fin 2) ∉ ([0] : List (Fin 2))))]
    simp only [Nat.add_zero, Nat.zero_add]
    rfl

end Gather

/-! ## Adding rows -/

section Scatter

/-- The dimension numbers of "add the rows of `u : [E, C]` onto the rows `idx` of an `[N, C]` table": the row axis
    inserted and indexed, the column axis the update's window. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)

/-- Update `(e, c)` starts, on the row axis, at the integer `idx (e, 0)` read signed. -/
theorem start_row (idx : IVec ⟨2, ![E, 1]⟩ w) (e : Fin E) (c : Fin C) :
    (rowScatterDims N E C wf).start (ix2 e c) idx 0 = (idx (ix2 e 0)).toInt := by
  unfold ScatterDims.start
  rw [dif_pos (show (0 : Fin 2) ∈ (rowScatterDims N E C wf).scatterDimsToOperandDims from List.mem_singleton.mpr rfl)]
  have hsi : (rowScatterDims N E C wf).siIdx (ix2 e c) ⟨List.idxOf (0 : Fin 2) (rowScatterDims N E C wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- … and on the column axis at zero; -/
theorem start_col (idx : IVec ⟨2, ![E, 1]⟩ w) (e : Fin E) (c : Fin C) :
    (rowScatterDims N E C wf).start (ix2 e c) idx 1 = 0 := by
  unfold ScatterDims.start
  rw [dif_neg (show (1 : Fin 2) ∉ (rowScatterDims N E C wf).scatterDimsToOperandDims from (by decide : (1 : Fin 2) ∉ ([0] : List (Fin 2))))]

/-- its window coordinate is nothing on the row axis -/
theorem window_row (e : Fin E) (c : Fin C) : (rowScatterDims N E C wf).window (ix2 e c) 0 = 0 := by
  unfold ScatterDims.window
  rw [dif_neg (show (0 : Fin 2) ∉ (rowScatterDims N E C wf).sKept from
    (by decide : (0 : Fin 2) ∉ (List.finRange 2).filter (· ∉ ([0] : List (Fin 2)))))]

/-- and its own column on the column axis. -/
theorem window_col (e : Fin E) (c : Fin C) : (rowScatterDims N E C wf).window (ix2 e c) 1 = c.val := by
  unfold ScatterDims.window
  rw [dif_pos (show (1 : Fin 2) ∈ (rowScatterDims N E C wf).sKept from
    (by decide : (1 : Fin 2) ∈ (List.finRange 2).filter (· ∉ ([0] : List (Fin 2)))))]
  rfl

/-- WHERE UPDATE `(e, c)` LANDS: on `(n, c')` exactly when its integer is `n` and the columns agree. -/
theorem resultIdx?_rows (idx : IVec ⟨2, ![E, 1]⟩ w) (e : Fin E) (c : Fin C) (n : Fin N) (c' : Fin C) :
    (rowScatterDims N E C wf).resultIdx? (ix2 e c) idx = some (ix2 n c') ↔ (idx (ix2 e 0)).toInt = (n.val : Int) ∧ c = c' := by
  unfold ScatterDims.resultIdx?
  constructor
  · intro h
    split at h
    · rename_i hin
      have h' := Option.some.inj h
      have h0 := congrArg (fun f => (f 0).val) h'
      have h1 := congrArg (fun f => (f 1).val) h'
      simp only [start_row, start_col, window_row, window_col] at h0 h1
      have hb := hin 0
      rw [start_row, window_row] at hb
      refine ⟨?_, Fin.ext ?_⟩
      · have : ((idx (ix2 e 0)).toInt + ((0 : Nat) : Int)).toNat = n.val := h0
        omega
      · have : (((0 : Int)) + ((c.val : Nat) : Int)).toNat = c'.val := h1
        omega
    · exact absurd h (by simp)
  · rintro ⟨hr, rfl⟩
    have h0 : 0 ≤ (rowScatterDims N E C wf).start (ix2 e c) idx 0 + (rowScatterDims N E C wf).window (ix2 e c) 0
        ∧ (rowScatterDims N E C wf).start (ix2 e c) idx 0 + (rowScatterDims N E C wf).window (ix2 e c) 0
          < (⟨2, ![N, C]⟩ : Shape).size 0 := by
      rw [start_row, window_row, hr]
      have := n.isLt
      refine ⟨by omega, ?_⟩
      show ((n.val : Int) + ((0 : Nat) : Int)) < ((N : Nat) : Int)
      omega
    have h1 : 0 ≤ (rowScatterDims N E C wf).start (ix2 e c) idx 1 + (rowScatterDims N E C wf).window (ix2 e c) 1
        ∧ (rowScatterDims N E C wf).start (ix2 e c) idx 1 + (rowScatterDims N E C wf).window (ix2 e c) 1
          < (⟨2, ![N, C]⟩ : Shape).size 1 := by
      rw [start_col, window_col]
      have := c.isLt
      refine ⟨by omega, ?_⟩
      show ((0 : Int) + ((c.val : Nat) : Int)) < ((C : Nat) : Int)
      omega
    have hin : ∀ a : Fin 2, 0 ≤ (rowScatterDims N E C wf).start (ix2 e c) idx a + (rowScatterDims N E C wf).window (ix2 e c) a
        ∧ (rowScatterDims N E C wf).start (ix2 e c) idx a + (rowScatterDims N E C wf).window (ix2 e c) a
          < (⟨2, ![N, C]⟩ : Shape).size a := fun a => match a with
      | ⟨0, _⟩ => h0
      | ⟨1, _⟩ => h1
    rw [dif_pos hin]
    refine congrArg some ?_
    funext a
    refine Fin.ext ?_
    match a with
    | ⟨0, _⟩ =>
      show ((rowScatterDims N E C wf).start (ix2 e c) idx 0 + (rowScatterDims N E C wf).window (ix2 e c) 0).toNat = n.val
      rw [start_row, window_row, hr]; omega
    | ⟨1, _⟩ =>
      show ((rowScatterDims N E C wf).start (ix2 e c) idx 1 + (rowScatterDims N E C wf).window (ix2 e c) 1).toNat = c.val
      rw [start_col, window_col]; omega

/-- The updates that land in row `n`: the entries of the index column whose integer is `n`. -/
def hits (idx : IVec ⟨2, ![E, 1]⟩ w) (n : Fin N) : Finset (Fin E) :=
  Finset.univ.filter fun e => (idx (ix2 e 0)).toInt = (n.val : Int)

/-- THE ROWS ADDED, READ AT `(n, c)` over the extended reals: the table's entry plus the sum, over the updates that
    land in row `n`, of their entries in column `c`. -/
theorem scatterAdd_rows_apply (x : FVec Ideal ⟨2, ![N, C]⟩ .f32) (idx : IVec ⟨2, ![E, 1]⟩ w)
    (u : FVec Ideal ⟨2, ![E, C]⟩ .f32) (n : Fin N) (c : Fin C) :
    Host.scatterAdd (rowScatterDims N E C wf) x idx u (ix2 n c) = x (ix2 n c) + ∑ e ∈ hits idx n, u (ix2 e c) := by
  show Ideal.hostScatterAdd (rowScatterDims N E C wf) x idx u (ix2 n c) = _
  unfold Ideal.hostScatterAdd
  refine congrArg (fun s => x (ix2 n c) + s) ?_
  rw [Finset.sum_filter, sum_idx2]
  unfold hits
  rw [Finset.sum_filter]
  refine Finset.sum_congr rfl fun e _ => ?_
  by_cases he : (idx (ix2 e 0)).toInt = (n.val : Int)
  · rw [if_pos he]
    rw [Finset.sum_eq_single c]
    · rw [if_pos ((resultIdx?_rows wf idx e c n c).mpr ⟨he, rfl⟩)]
    · intro c' _ hc'
      rw [if_neg (fun h => hc' ((resultIdx?_rows wf idx e c' n c).mp h).2)]
    · intro h; exact absurd (Finset.mem_univ c) h
  · rw [if_neg he]
    refine Finset.sum_eq_zero fun c' _ => ?_
    rw [if_neg (fun h => he ((resultIdx?_rows wf idx e c' n c).mp h).1)]

end Scatter

end Cert.RowGatherScatter

end
-- ==== Proof.LibMeanAggregate.lean ====
/-
  Mean aggregation commutes with a linear map — the one law that joins the two programs.

  Fix a node. Let `H` be the edges arriving at it, `f e k` the feature `k` of edge `e`'s source row, `w e` the
  edge's weight, `wn k` one column of the neighbour weight matrix, and `d = max D 1` the node's clipped in-degree.
  One program first sums the weighted source rows, scales the sum by `1 / d` and then applies the matrix:

      ∑ k, ((0 + ∑ e ∈ H, f e k · w e) · (1 / d)) · wn k

  the other applies the matrix to every source row first, weights, sums and divides:

      (0 + ∑ e ∈ H, (∑ k, f e k · wn k) · w e) / d.

  Over the reals these agree by exchanging the two finite sums and distributing the products. Over the extended
  reals the same holds as soon as the `f`, `w`, `wn` are real: the divisor `d ≥ 1` is never zero, so dividing by it
  is multiplying by `d⁻¹`, and `d⁻¹` is a real number in `[0, 1]` whatever `D` is (`⊤⁻¹ = 0`); nothing infinite
  enters the sums.
-/
import Idealize.ShloMosaic.PureOps.Ideal

noncomputable section

open scoped BigOperators

namespace Cert.MeanAggregate

open Idealize.ShloMosaic

/-- The inclusion of the reals in the extended reals commutes with finite sums. -/
theorem coe_sum {ι : Type} (s : Finset ι) (f : ι → ℝ) :
    ((∑ i ∈ s, f i : ℝ) : EReal) = ∑ i ∈ s, (f i : EReal) := by
  classical
  refine Finset.induction_on s (by simp) ?_
  intro a s ha ih
  rw [Finset.sum_insert ha, Finset.sum_insert ha, EReal.coe_add, ih]

/-- THE LAW OVER THE REALS: scaling the aggregated rows by `c` and then contracting with `wn` is contracting every
    row with `wn` first, then weighting, summing and scaling. -/
theorem aggregate_real {E K : Type} [Fintype K] (H : Finset E) (f : E → K → ℝ) (w : E → ℝ) (wn : K → ℝ) (c : ℝ) :
    ∑ k, ((∑ e ∈ H, f e k * w e) * c) * wn k = (∑ e ∈ H, (∑ k, f e k * wn k) * w e) * c := by
  calc ∑ k, ((∑ e ∈ H, f e k * w e) * c) * wn k
      = ∑ k, ∑ e ∈ H, f e k * w e * c * wn k := by
        refine Finset.sum_congr rfl fun k _ => ?_
        rw [Finset.sum_mul, Finset.sum_mul]
    _ = ∑ e ∈ H, ∑ k, f e k * w e * c * wn k := Finset.sum_comm
    _ = ∑ e ∈ H, (∑ k, f e k * wn k) * w e * c := by
        refine Finset.sum_congr rfl fun e _ => ?_
        rw [Finset.sum_mul, Finset.sum_mul]
        exact Finset.sum_congr rfl fun k _ => by ring
    _ = (∑ e ∈ H, (∑ k, f e k * wn k) * w e) * c := by rw [Finset.sum_mul]

/-- The unit word of single precision denotes the number one. -/
theorem ofBits_one : Ideal.ofBits .f32 0x3F800000#32 = 1 := by
  simp [Ideal.ofBits, Ideal.ieee, -EReal.coe_mul]; norm_num

/-- A degree clipped below at one is never zero, and its inverse is a real number. -/
theorem inv_max_one (D : EReal) : max D 1 ≠ 0 ∧ ∃ c : ℝ, (max D 1)⁻¹ = (c : EReal) := by
  have h1 : (1 : EReal) ≤ max D 1 := le_max_right _ _
  generalize max D 1 = d at h1 ⊢
  refine ⟨fun h0 => ?_, ?_⟩
  · rw [h0] at h1
    exact absurd h1 (by norm_num)
  · induction d using EReal.rec with
    | bot => exact absurd (le_bot_iff.mp h1) (by exact_mod_cast EReal.coe_ne_bot (1 : ℝ))
    | coe r => exact ⟨r⁻¹, (EReal.coe_inv r).symm⟩
    | top => exact ⟨0, by simp⟩

/-- THE LAW OVER THE EXTENDED REALS, in the two programs' own spelling: real features, weights and matrix entries, any
    extended-real degree `D`. -/
theorem aggregate_ereal {E K : Type} [Fintype K] (H : Finset E) (f : E → K → ℝ) (w : E → ℝ) (wn : K → ℝ) (D : EReal) :
    ∑ k, (((0 : EReal) + ∑ e ∈ H, (f e k : EReal) * (w e : EReal)) * Ideal.div 1 (max D 1)) * (wn k : EReal)
      = Ideal.div (0 + ∑ e ∈ H, (∑ k, (f e k : EReal) * (wn k : EReal)) * (w e : EReal)) (max D 1) := by
  obtain ⟨h0, c, hc⟩ := inv_max_one D
  unfold Ideal.div
  rw [if_neg h0, if_neg h0, hc, one_mul, zero_add]
  have hl : ∀ k, (((0 : EReal) + ∑ e ∈ H, (f e k : EReal) * (w e : EReal)) * (c : EReal)) * (wn k : EReal)
      = (((∑ e ∈ H, f e k * w e) * c * wn k : ℝ) : EReal) := fun k => by
    rw [zero_add, EReal.coe_mul, EReal.coe_mul, coe_sum]
    simp only [EReal.coe_mul]
  have hr : ∀ e, (∑ k, (f e k : EReal) * (wn k : EReal)) * (w e : EReal) = (((∑ k, f e k * wn k) * w e : ℝ) : EReal) := fun e => by
    rw [EReal.coe_mul, coe_sum]
    simp only [EReal.coe_mul]
  simp only [hl, hr]
  rw [← coe_sum, ← coe_sum, ← EReal.coe_mul]
  exact congrArg _ (aggregate_real H f w wn c)

end Cert.MeanAggregate

end
-- ==== Proof.LibRealEntries.lean ====
/-
  Real entries of arrays over the extended reals, and how a finiteness precondition gives them.

  `IsReal x` says the extended real `x` is a real number.  Real numbers are closed under sums, products, maxima and
  finite sums.  A precondition of the usual form — for an input array `x`, the `and`-reduction over all axes, from
  `true`, of the entrywise test `|x| < +∞` came out `true` — makes every entry of `x` real: the reduction met `true`
  at every entry, and an extended real whose absolute value `max x (-x)` is below `+∞` is neither infinity.
-/
import Idealize.ShloMosaic.Lib.ReduceAll
import Idealize.ShloMosaic.Lib.Pipeline.Value
import Idealize.ShloMosaic.Lib.ValueIdx
import Idealize.ShloMosaic.PureOps.Ideal.Laws

noncomputable section

open scoped BigOperators

namespace Cert.RealEntries

open Idealize.ShloMosaic

/-- An extended real that is a real number. -/
def IsReal (x : EReal) : Prop := ∃ r : ℝ, x = (r : EReal)

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.max {x y : EReal} (hx : IsReal x) (hy : IsReal y) : IsReal (max x y) := by
  obtain ⟨a, rfl⟩ := hx; obtain ⟨b, rfl⟩ := hy
  exact ⟨Max.max a b, (EReal.coe_strictMono.monotone.map_max).symm⟩

/-- A finite sum of real numbers is real. -/
theorem IsReal.sum {ι : Type} (s : Finset ι) (f : ι → EReal) (h : ∀ i ∈ s, IsReal (f i)) : IsReal (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

/-- The single-precision word of 0.0 denotes a real number. -/
theorem isReal_zero_word : IsReal (Ideal.ofBits .f32 0x00000000#32) := ⟨0, by rw [Ideal.ofBits_zero_f32]; rfl⟩

/-- The single-precision word `0x7F800000` denotes `+∞`. -/
theorem ofBits_inf : Ideal.ofBits .f32 0x7F800000#32 = (⊤ : EReal) := by
  simp [Ideal.ofBits, Ideal.ieee]

/-- An extended real with `|x| < +∞`, as the ordered comparison of `max x (-x)` with the word of `+∞` reads it, is a
    real number. -/
theorem isReal_of_abs_lt (x : EReal)
    (h : Ideal.cmp .olt (Max.max x (-x)) (Ideal.ofBits .f32 0x7F800000#32) = 1#1) : IsReal x := by
  rw [ofBits_inf] at h
  have hlt : Max.max x (-x) < (⊤ : EReal) := by
    by_contra hc
    have h0 : Ideal.cmp .olt (Max.max x (-x)) (⊤ : EReal) = 0#1 := by
      show BitVec.ofBool (decide (Max.max x (-x) < (⊤ : EReal))) = 0#1
      rw [decide_eq_false hc]; rfl
    rw [h0] at h
    exact absurd h (by decide)
  induction x using EReal.rec with
  | bot => exact absurd hlt (by simp)
  | coe r => exact ⟨r, rfl⟩
  | top => exact absurd hlt (by simp)

instance : Subsingleton (⟨0, ![]⟩ : Shape).Idx := ⟨fun a b => funext fun d => d.elim0⟩

/-- ONE INPUT'S SHARE OF A FINITENESS PRECONDITION: when the `and`-reduction of `|x| < +∞` over the whole array `x`,
    started from `true`, came out `true`, every entry of `x` is real.  Any shape, any list of reduced axes. -/
theorem entries_real {s : Shape} {axes : List (Fin s.rank)} (x : FVec Ideal s .f32)
    (hb : (⟨0, ![]⟩ : Shape).BroadcastsInDim s (![] : Fin 0 → Fin s.rank)) (hr : s.ReducesTo axes ⟨0, ![]⟩)
    (hu : 0 < (⟨0, ![]⟩ : Shape).numel)
    (e : Host.reduce IntOp.andi
      (cmpf .olt (Host.absf x) (broadcastInDim s ![] hb (constant (F := Ideal) ⟨0, ![]⟩ .f32 0x7F800000#32)))
      (constantI ⟨0, ![]⟩ 1 1#1) hr hu ValueIdx.ix0 = 1#1) (i : s.Idx) : IsReal (x i) := by
  have h := Host.reduce_andi_all _ _ hr hu ValueIdx.ix0 e i
  refine isReal_of_abs_lt (x i) ?_
  have hb' : broadcastInDim s ![] hb (constant (F := Ideal) ⟨0, ![]⟩ .f32 0x7F800000#32) i = Ideal.ofBits .f32 0x7F800000#32 :=
    broadcastInDim_apply _ hb _ i (fun a => a.elim0) (fun a => a.elim0)
  rw [← hb']
  exact h

end Cert.RealEntries

end
-- ==== Proof.Spec.lean ====
/-
  Two-layer neighbour-mean message passing: the two arrangements of the second layer, and the law that joins them.

  Nodes `n < 100000`, edges `e < 1600000`. Edge `e` brings the row `σ e` of a node table (its source: the edge's
  source integer read signed and brought into range) to the node its destination integer names; `H n` is the set of
  edges arriving at `n`, and `D n = max (cnt n) 1` the clipped in-degree.

      agg x n c  = 0 + ∑ e ∈ H n, x (σ e, c)                      the arriving rows, summed
      mean x n c = agg x n c / D n
      hid n k    = max (∑ c, mean feat n c · W1 (c, k) + b1 k) 0    the first layer
      proj n j   = ∑ k, hid n k · W2 (k, j)                         the first layer's rows, already projected

  One program averages the projected rows, the other projects the averaged rows:

      projected first :  agg proj n j / D n + b2 j
      averaged first  :  ∑ k, mean hid n k · W2 (k, j) + b2 j

  They agree as soon as `hid` and `W2` are real: `D n ≥ 1` is not zero, so dividing by it is multiplying by its
  inverse, a real number in `[0, 1]` whatever the count is; then both are finite sums of products of reals, equal by
  exchanging the two sums.  `hid` is real when the features, `W1` and `b1` are.
-/
import proofs.«129111_j67542655697275_2_alg».proof.Proof.LibRowGatherScatter
import proofs.«129111_j67542655697275_2_alg».proof.Proof.LibMeanAggregate
import proofs.«129111_j67542655697275_2_alg».proof.Proof.LibRealEntries
import Idealize.ShloMosaic.Lib.ValueIdx
import Idealize.ShloMosaic.PureOps.Ideal.Laws

noncomputable section

open scoped BigOperators

namespace Cert.NeighbourMean

open Idealize.ShloMosaic Idealize.ShloMosaic.ValueIdx Cert.RowGatherScatter Cert.RealEntries

/-- The words of 1.0 and of 0.0, as the programs spell them. -/
abbrev one : EReal := Ideal.ofBits .f32 0x3F800000#32
abbrev zero : EReal := Ideal.ofBits .f32 0x00000000#32

/-! ## Real entries -/

theorem isReal_zero : IsReal zero := isReal_zero_word

/-- Dividing a real by a count clipped below at one gives a real, whatever the count. -/
theorem IsReal.div_clipped {x : EReal} (hx : IsReal x) (D : EReal) : IsReal (Ideal.div x (Max.max D one)) := by
  rw [one, Cert.MeanAggregate.ofBits_one]
  obtain ⟨h0, c, hc⟩ := Cert.MeanAggregate.inv_max_one D
  unfold Ideal.div
  rw [if_neg h0, hc]
  exact hx.mul ⟨c, rfl⟩

/-! ## The two arrangements -/

section Arrangements

variable (src dst : IVec ⟨2, ![1600000, 1]⟩ 32) (cnt : (⟨1, ![100000]⟩ : Shape).Idx → EReal)

/-- The clipped in-degree of node `n`. -/
def deg (n : Fin 100000) : EReal := Max.max (cnt (ix1 n)) one

/-- The rows of `x` arriving at node `n`, summed, in column `c`. -/
def agg {C : ℕ} (x : (⟨2, ![100000, C]⟩ : Shape).Idx → EReal) (n : Fin 100000) (c : Fin C) : EReal :=
  zero + ∑ e ∈ hits dst n, x (ix2 (rowOf (N := 100000) (by decide) src e) c)

/-- Their mean. -/
def mean {C : ℕ} (x : (⟨2, ![100000, C]⟩ : Shape).Idx → EReal) (n : Fin 100000) (c : Fin C) : EReal :=
  Ideal.div (agg src dst x n c) (deg cnt n)

variable (feat : (⟨2, ![100000, 128]⟩ : Shape).Idx → EReal) (w1 : (⟨2, ![128, 128]⟩ : Shape).Idx → EReal)
  (b1 : (⟨1, ![128]⟩ : Shape).Idx → EReal) (w2 : (⟨2, ![128, 64]⟩ : Shape).Idx → EReal) (b2 : (⟨1, ![64]⟩ : Shape).Idx → EReal)

/-- The first layer: the mean of the arriving feature rows through `W1`, `b1` and the positive part. -/
def hid (n : Fin 100000) (k : Fin 128) : EReal :=
  Max.max ((∑ c : Fin 128, mean src dst cnt feat n c * w1 (ix2 c k)) + b1 (ix1 k)) zero

/-- The first layer's rows through `W2`. -/
def proj (n : Fin 100000) (j : Fin 64) : EReal :=
  ∑ k : Fin 128, hid src dst cnt feat w1 b1 n k * w2 (ix2 k j)

/-- A table given by its entries. -/
def tab {A B : ℕ} (g : Fin A → Fin B → EReal) : (⟨2, ![A, B]⟩ : Shape).Idx → EReal := fun i => g (i 0) (i 1)

theorem tab_ix2 {A B : ℕ} (g : Fin A → Fin B → EReal) (p : Fin A) (q : Fin B) : tab g (ix2 p q) = g p q := rfl

/-- The second layer, projected rows averaged. -/
def outProjFirst (n : Fin 100000) (j : Fin 64) : EReal :=
  mean src dst cnt (tab (proj src dst cnt feat w1 b1 w2)) n j + b2 (ix1 j)

/-- The second layer, averaged rows projected. -/
def outMeanFirst (n : Fin 100000) (j : Fin 64) : EReal :=
  (∑ k : Fin 128, mean src dst cnt (tab (hid src dst cnt feat w1 b1)) n k * w2 (ix2 k j)) + b2 (ix1 j)

end Arrangements

/-! ## The law -/

/-- Over the reals: averaging then contracting is contracting then averaging. -/
theorem mean_project_real {E K : Type} [Fintype K] (H : Finset E) (h : E → K → ℝ) (w : K → ℝ) (c : ℝ) :
    ∑ k, ((∑ e ∈ H, h e k) * c) * w k = (∑ e ∈ H, ∑ k, h e k * w k) * c := by
  have := Cert.MeanAggregate.aggregate_real H h (fun _ => 1) w c
  simpa only [mul_one] using this

/-- Over the extended reals, in the programs' spelling: real rows and matrix entries, any count `D`. -/
theorem mean_project_ereal {E K : Type} [Fintype K] (H : Finset E) (h : E → K → ℝ) (w : K → ℝ) (D : EReal) :
    ∑ k, Ideal.div (zero + ∑ e ∈ H, (h e k : EReal)) (Max.max D one) * (w k : EReal)
      = Ideal.div (zero + ∑ e ∈ H, ∑ k, (h e k : EReal) * (w k : EReal)) (Max.max D one) := by
  rw [one, Cert.MeanAggregate.ofBits_one, zero, Ideal.ofBits_zero_f32]
  obtain ⟨h0, c, hc⟩ := Cert.MeanAggregate.inv_max_one D
  unfold Ideal.div
  simp only [if_neg h0, hc, zero_add]
  have hl : ∀ k, (∑ e ∈ H, (h e k : EReal)) * (c : EReal) * (w k : EReal) = (((∑ e ∈ H, h e k) * c * w k : ℝ) : EReal) := fun k => by
    rw [EReal.coe_mul, EReal.coe_mul, Cert.MeanAggregate.coe_sum]
  have hr : ∀ e, ∑ k, (h e k : EReal) * (w k : EReal) = ((∑ k, h e k * w k : ℝ) : EReal) := fun e => by
    rw [Cert.MeanAggregate.coe_sum]
    simp only [EReal.coe_mul]
  simp only [hl, hr]
  rw [← Cert.MeanAggregate.coe_sum, ← Cert.MeanAggregate.coe_sum, ← EReal.coe_mul]
  exact congrArg _ (mean_project_real H h w c)

section Joined

variable (src dst : IVec ⟨2, ![1600000, 1]⟩ 32) (cnt : (⟨1, ![100000]⟩ : Shape).Idx → EReal)
  (feat : (⟨2, ![100000, 128]⟩ : Shape).Idx → EReal) (w1 : (⟨2, ![128, 128]⟩ : Shape).Idx → EReal)
  (b1 : (⟨1, ![128]⟩ : Shape).Idx → EReal) (w2 : (⟨2, ![128, 64]⟩ : Shape).Idx → EReal) (b2 : (⟨1, ![64]⟩ : Shape).Idx → EReal)

/-- The first layer is real when the features, `W1` and `b1` are. -/
theorem hid_real (hf : ∀ i, IsReal (feat i)) (hw1 : ∀ i, IsReal (w1 i)) (hb1 : ∀ i, IsReal (b1 i))
    (n : Fin 100000) (k : Fin 128) : IsReal (hid src dst cnt feat w1 b1 n k) := by
  unfold hid
  refine IsReal.max (IsReal.add (IsReal.sum _ _ fun c _ => IsReal.mul ?_ (hw1 _)) (hb1 _)) isReal_zero
  unfold mean deg agg
  exact IsReal.div_clipped (isReal_zero.add (IsReal.sum _ _ fun e _ => hf _)) _

/-- THE TWO ARRANGEMENTS AGREE when the features and the three float parameters before `b2` are real. -/
theorem outProjFirst_eq_outMeanFirst (hf : ∀ i, IsReal (feat i)) (hw1 : ∀ i, IsReal (w1 i)) (hb1 : ∀ i, IsReal (b1 i))
    (hw2 : ∀ i, IsReal (w2 i)) (n : Fin 100000) (j : Fin 64) :
    outProjFirst src dst cnt feat w1 b1 w2 b2 n j = outMeanFirst src dst cnt feat w1 b1 w2 b2 n j := by
  choose hr hhr using hid_real src dst cnt feat w1 b1 hf hw1 hb1
  choose wr hwr using hw2
  unfold outProjFirst outMeanFirst
  refine congrArg (· + b2 (ix1 j)) ?_
  unfold mean deg agg
  simp only [tab_ix2]
  unfold proj
  simp only [hhr, hwr]
  exact (mean_project_ereal (hits dst n) (fun e k => hr (rowOf (N := 100000) (by decide) src e) k)
    (fun k => wr (ix2 k j)) (cnt (ix1 n))).symm

end Joined

end Cert.NeighbourMean

end
-- ==== Proof.RefValue.lean ====
/-
  The reference program's result, index by index.

  The reference gathers the feature rows along the edges, sums them per destination node and divides by the clipped
  in-degree; applies `W1`, `b1` and the positive part; then does the same aggregation on that hidden table and
  applies `W2` and `b2`.  Read at `(n, j)` this is the "averaged rows projected" arrangement of the specification:
  every broadcast reads its operand at the evident coordinate, a gather of rows reads the table at the named row, a
  scatter-add of rows is the table's entry plus the sum over the arriving edges, and a matrix product at the ideal
  values is a plain sum.
-/
import proofs.«129111_j67542655697275_2_alg».proof.Proof.Gen.ReferenceIdeal.Read
import proofs.«129111_j67542655697275_2_alg».proof.Proof.Spec

noncomputable section

open scoped BigOperators

namespace Cert.ReferenceIdeal.Mean

open Cert.ReferenceIdeal Cert.ReferenceIdeal.Read Idealize.ShloMosaic Idealize.ShloMosaic.ValueIdx
open Cert.RowGatherScatter Cert.NeighbourMean
open Cert.ReferenceIdeal.Facts₀ Cert.ReferenceIdeal.Facts

/-! ## Rows taken and rows added, in the program's own records -/

/-- Rows of a 128-wide node table taken along the edges. -/
theorem gather128_apply (x : S100000x128.Idx → EReal) (idx : IVec S1600000x1 32) (e : Fin 1600000) (c : Fin 128) :
    Host.gather gather_S100000x128_S1600000x1_S1600000x128_1_0_n_n_0_1_1128 x idx (ix2 e c)
      = x (ix2 (rowOf (N := 100000) (by decide) idx e) c) :=
  gather_rows_apply (by decide) gather_S100000x128_S1600000x1_S1600000x128_1_0_n_n_0_1_1128_wf x idx e c

/-- Rows of a 128-wide edge table added onto the nodes their edges arrive at. -/
theorem scatter128_apply (x : FVec Ideal S100000x128 .f32) (idx : IVec S1600000x1 32) (u : FVec Ideal S1600000x128 .f32)
    (n : Fin 100000) (c : Fin 128) :
    Host.scatterAdd scatter_S100000x128_S1600000x1_S1600000x128_1_0_0_1 x idx u (ix2 n c)
      = x (ix2 n c) + ∑ e ∈ hits idx n, u (ix2 e c) :=
  scatterAdd_rows_apply scatter_S100000x128_S1600000x1_S1600000x128_1_0_0_1_wf x idx u n c

section Stages

variable (x0 : (⟨S100000x128, .f32⟩ : BufTy).Contents (Elt Ideal)) (x1 : (⟨S128x128, .f32⟩ : BufTy).Contents (Elt Ideal))
  (x2 : (⟨S128, .f32⟩ : BufTy).Contents (Elt Ideal)) (x3 : (⟨S128x64, .f32⟩ : BufTy).Contents (Elt Ideal))
  (x4 : (⟨S64, .f32⟩ : BufTy).Contents (Elt Ideal)) (x5 x6 : (⟨S1600000, .i32⟩ : BufTy).Contents (Elt Ideal))

/-- The edges' source column, destination column and the nodes' counts, as the reference computes them. -/
abbrev srcCol : IVec S1600000x1 32 := val_main_v5 (F := Ideal) x5
abbrev dstCol : IVec S1600000x1 32 := val_main_v8 (F := Ideal) x6
abbrev cntVec : S100000.Idx → EReal := val_main_v13 (F := Ideal) x6

/-- The clipped in-degree broadcast over the 128 columns, first layer. -/
theorem degree_first (n : Fin 100000) (c : Fin 128) :
    val_main_v17 (F := Ideal) x6 (ix2 n c) = deg (cntVec x6) n := by
  have e : idx_main_v16 (idx_main_v17 (ix2 n c)) = ix1 n :=
    funext fun a => Fin.ext (by match a with | ⟨0, _⟩ => rfl)
  rw [val_main_v17_apply, val_main_v16_apply, val_main_v15_apply, e, val_main_v14_apply, val_main_cst_3_apply]
  unfold deg
  rfl

/-- The same, second layer. -/
theorem degree_second (n : Fin 100000) (c : Fin 128) :
    val_main_v41 (F := Ideal) x6 (ix2 n c) = deg (cntVec x6) n := by
  have e : idx_main_v40 (idx_main_v41 (ix2 n c)) = ix1 n :=
    funext fun a => Fin.ext (by match a with | ⟨0, _⟩ => rfl)
  rw [val_main_v41_apply, val_main_v40_apply, val_main_v39_apply, e, val_main_v38_apply, val_main_cst_9_apply]
  unfold deg
  rfl

/-- The summed arriving feature rows. -/
theorem agg_first (n : Fin 100000) (c : Fin 128) :
    val_main_v9 (F := Ideal) x0 x5 x6 (ix2 n c) = agg (srcCol x5) (dstCol x6) x0 n c := by
  unfold val_main_v9
  rw [scatter128_apply]
  unfold agg
  refine congrArg₂ (· + ·) rfl (Finset.sum_congr rfl fun e _ => ?_)
  unfold val_main_v6
  rw [gather128_apply]

/-- The first layer. -/
theorem hidden_apply (n : Fin 100000) (k : Fin 128) :
    val_main_v23 (F := Ideal) x0 x1 x2 x5 x6 (ix2 n k) = hid (srcCol x5) (dstCol x6) (cntVec x6) x0 x1 x2 n k := by
  have el : ∀ c : Fin 128, lidx_main_v19 (ix2 n k) c = ix2 n c := fun c =>
    funext fun a => Fin.ext (by match a with | ⟨0, _⟩ => rfl | ⟨1, _⟩ => rfl)
  have er : ∀ c : Fin 128, ridx_main_v19 (ix2 n k) c = ix2 c k := fun c =>
    funext fun a => Fin.ext (by match a with | ⟨0, _⟩ => rfl | ⟨1, _⟩ => rfl)
  have eb : idx_main_v20 (idx_main_v21 (ix2 n k)) = ix1 k :=
    funext fun a => Fin.ext (by match a with | ⟨0, _⟩ => rfl)
  rw [val_main_v23_apply, val_main_v22_apply, val_main_v19_apply, val_main_v21_apply, val_main_v20_apply, eb]
  unfold hid
  refine congrArg₂ Max.max (congrArg₂ (· + ·) (Finset.sum_congr rfl fun c _ => ?_) rfl) rfl
  rw [el, er, val_main_v18_apply, agg_first, degree_first]
  unfold mean
  rfl

/-- The summed arriving hidden rows. -/
theorem agg_second (n : Fin 100000) (k : Fin 128) :
    val_main_v33 (F := Ideal) x0 x1 x2 x5 x6 (ix2 n k)
      = agg (srcCol x5) (dstCol x6) (tab (hid (srcCol x5) (dstCol x6) (cntVec x6) x0 x1 x2)) n k := by
  unfold val_main_v33
  rw [scatter128_apply]
  unfold agg
  refine congrArg₂ (· + ·) rfl (Finset.sum_congr rfl fun e _ => ?_)
  unfold val_main_v30
  rw [gather128_apply, tab_ix2]
  exact hidden_apply x0 x1 x2 x5 x6 _ k

/-- THE REFERENCE'S RESULT is the "averaged rows projected" arrangement. -/
theorem result_apply (n : Fin 100000) (j : Fin 64) :
    val_main_v46 (F := Ideal) x0 x1 x2 x3 x4 x5 x6 (ix2 n j)
      = outMeanFirst (srcCol x5) (dstCol x6) (cntVec x6) x0 x1 x2 x3 x4 n j := by
  have el : ∀ k : Fin 128, lidx_main_v43 (ix2 n j) k = ix2 n k := fun k =>
    funext fun a => Fin.ext (by match a with | ⟨0, _⟩ => rfl | ⟨1, _⟩ => rfl)
  have er : ∀ k : Fin 128, ridx_main_v43 (ix2 n j) k = ix2 k j := fun k =>
    funext fun a => Fin.ext (by match a with | ⟨0, _⟩ => rfl | ⟨1, _⟩ => rfl)
  have eb : idx_main_v44 (idx_main_v45 (ix2 n j)) = ix1 j :=
    funext fun a => Fin.ext (by match a with | ⟨0, _⟩ => rfl)
  rw [val_main_v46_apply, val_main_v43_apply, val_main_v45_apply, val_main_v44_apply, eb]
  unfold outMeanFirst
  refine congrArg₂ (· + ·) (Finset.sum_congr rfl fun k _ => ?_) rfl
  rw [el, er, val_main_v42_apply, agg_second, degree_second]
  unfold mean
  rfl

theorem result_eq :
    val_main_v46 (F := Ideal) x0 x1 x2 x3 x4 x5 x6
      = tab (outMeanFirst (srcCol x5) (dstCol x6) (cntVec x6) x0 x1 x2 x3 x4) := by
  funext i
  obtain ⟨n, j, rfl⟩ : ∃ (n : Fin 100000) (j : Fin 64), i = ix2 n j := ⟨i 0, i 1, eq_ix2 i⟩
  rw [tab_ix2]
  exact result_apply x0 x1 x2 x3 x4 x5 x6 n j

end Stages

end Cert.ReferenceIdeal.Mean

end
-- ==== Proof.KernelRun.lean ====
/-
  The idealized kernel's run, with its result array named.

  @main is four segments: host operations, the first launch (twenty row blocks of 5000 nodes), host operations, the
  second launch (again twenty row blocks).  The buffer contents at each boundary are a fold from the launch memory:
  a stretch of host operations applies its operations' functions, a launch replaces each of its arrays by what its
  write-backs leave.  Every weakly fair execution ends with every buffer at the end of that fold; in particular the
  result array ends at what the second launch's write-backs leave in it, and the seven arguments end as launched.
-/
import proofs.«129111_j67542655697275_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result array at the end of the fold
    of boundary contents (`W4`) and the arguments as launched. -/
theorem run_fold : θ_run defs (onTc (τ := τ) (main (F := F))) ⟨m, fun _ => 0, ρ⟩ (fun r => ∀ c : Dev nD,
      r.2.mem ((c.tc : Thread nD τ).loc main_v32) = W4 m ρ c (Proc.devRef .tc main_v32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v32 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c)⟩)

/-- The result array is the second launch's output window: the fold's last step leaves in it what that launch's
    write-backs leave. -/
theorem fold_result (c : Dev nD) :
    W4 m ρ c (Proc.devRef .tc main_v32) = (dat1 (V3 m ρ) c).arrAt 3 cfg1.N :=
  W4_arr m ρ c 3

end Cert.KernelIdeal.Whole

end
-- ==== Proof.LibPlainProduct.lean ====
/-
  The plain matrix product at the ideal values, where a product is an exact sum.

  For `A : [m, k]` and `B : [k, n]`, the product contracting the second axis of `A` with the first of `B` into a zero
  accumulator has at `(a, b)` the sum over `c` of `A (a, c) · B (c, b)`.
-/
import Idealize.ShloMosaic.Lib.Pipeline.Value
import Idealize.ShloMosaic.Lib.ValueIdx
import Idealize.ShloMosaic.PureOps.Ideal.Laws

noncomputable section

namespace Cert.PlainProduct

open Idealize.ShloMosaic Idealize.ShloMosaic.ValueIdx

/-- `A · B` into the zero accumulator, read at `(a, b)`: the sum over the shared coordinate of the products. -/
theorem matmul_nn_apply {m n k : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    FloatOps.matmul (⟨[1], [0], [0], [1], [], [], w⟩ : DotDims _ _ _) prec A B (constant _ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.PlainProduct

end
-- ==== Proof.LibBroadcast.lean ====
/-
  Broadcasts of a single column, read at an index, and the two small re-layouts of a vector as a matrix.

  An `[a, 1]` array broadcast to `[a, b]` has at `(p, c)` the column's entry `p`.  A vector of length `n` re-laid as a
  `[1, n]` row or as an `[n, 1]` column keeps its entries in order.
-/
import Idealize.ShloMosaic.Lib.Pipeline.Value
import Idealize.ShloMosaic.Lib.ValueLayout
import Idealize.ShloMosaic.Lib.ValueIdx

noncomputable section

namespace Cert.Layout

open Idealize.ShloMosaic Idealize.ShloMosaic.ValueIdx

variable {α : Type}

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector re-laid as a one-row matrix: entry `(0, q)` is entry `q`. -/
theorem shapeCast_row_apply {n : ℕ} (v : (⟨1, ![n]⟩ : Shape).Idx → α) (h : (⟨1, ![n]⟩ : Shape).ShapeCasts ⟨2, ![1, n]⟩) (q : Fin n) :
    shapeCast (⟨2, ![1, n]⟩ : Shape) v h (ix2 (0 : Fin 1) q) = v (ix1 q) := by
  refine shapeCast_apply v h (ix2 (0 : Fin 1) q) (ix1 q) ?_
  rw [Shape.rowMajor_val_two, Shape.rowMajor_val_one]
  show q.val = 0 * n + q.val
  omega

/-- A vector re-laid as a one-column matrix: entry `(p, 0)` is entry `p`. -/
theorem shapeCast_col_apply {n : ℕ} (v : (⟨1, ![n]⟩ : Shape).Idx → α) (h : (⟨1, ![n]⟩ : Shape).ShapeCasts ⟨2, ![n, 1]⟩) (p : Fin n) :
    shapeCast (⟨2, ![n, 1]⟩ : Shape) v h (ix2 p (0 : Fin 1)) = v (ix1 p) := by
  refine shapeCast_apply v h (ix2 p (0 : Fin 1)) (ix1 p) ?_
  rw [Shape.rowMajor_val_two, Shape.rowMajor_val_one]
  show p.val = p.val * 1 + 0
  omega

end Cert.Layout

end
-- ==== Proof.LibRowsProduct.lean ====
/-
  Two small facts about `[m, k]` arrays, at the ideal values where a product is an exact sum.

  A one-row matrix broadcast down `a` rows has at `(p, q)` the row's entry `q`.  The matrix product that contracts the
  SECOND axis of both operands — `A · Bᵀ` for `A : [m, k]`, `B : [n, k]` — into a zero accumulator has at `(a, b)` the
  sum over `c` of `A (a, c) · B (b, c)`.
-/
import Idealize.ShloMosaic.Lib.Pipeline.Value
import Idealize.ShloMosaic.Lib.ValueLayout
import Idealize.ShloMosaic.Lib.ValueIdx
import Idealize.ShloMosaic.PureOps.Ideal.Laws

noncomputable section

namespace Cert.RowsProduct

open Idealize.ShloMosaic Idealize.ShloMosaic.ValueIdx

/-- A `[1, n]` array broadcast to `[a, n]` reads, at `(p, q)`, the operand's one row at `q`. -/
theorem broadcastTo_1n_an_apply {α : Type} {a n : ℕ} (v : (⟨2, ![1, n]⟩ : Shape).Idx → α)
    (h : (⟨2, ![1, n]⟩ : Shape).Broadcasts ⟨2, ![a, n]⟩) (p : Fin a) (q : Fin n) :
    broadcastTo ⟨2, ![a, n]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if n = 1 then 0 else q.val
    split
    · have := q.isLt; omega
    · rfl

/-- `A · Bᵀ` into the zero accumulator, read at `(a, b)`: the sum over the shared second coordinate of the products. -/
theorem matmul_nt_apply {m n k : ℕ} {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂) (a : Fin m) (b : Fin n) :
    FloatOps.matmul (⟨[1], [1], [0], [0], [], [], w⟩ : DotDims _ _ _) prec A B (constant _ .f32 0x00000000#32) (ix2 a b)
      = ∑ c : Fin k, A (ix2 a c) * B (ix2 b c) := by
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Cert.RowsProduct

end
-- ==== Proof.KernelBodies.lean ====
/-
  The two kernel bodies' arithmetic, read at one entry of the block they store.

  The first body takes a block of 5000 nodes: their summed arriving feature rows `s`, their in-degree column `d`,
  and the whole of `W1`, the row `b1` and `W2`.  Entry `(p, q)` of what it stores is

      ∑ k, max (∑ c, (s (p, c) / max (d (p, 0)) 1) · W1 (c, k) + b1 (0, k)) 0 · W2 (k, q)

  — both matrix products into a zero accumulator are plain sums at the ideal values, the changes of float format are
  the identity, and each broadcast reads its one column or one row.  The second body takes the summed arriving
  projected rows `s`, the same degree column and the row `b2`, and stores `s (p, q) / max (d (p, 0)) 1 + b2 (0, q)`.
-/
import proofs.«129111_j67542655697275_2_alg».proof.Proof.Gen.KernelIdeal.Skeleton
import proofs.«129111_j67542655697275_2_alg».proof.Proof.LibPlainProduct
import proofs.«129111_j67542655697275_2_alg».proof.Proof.LibBroadcast
import proofs.«129111_j67542655697275_2_alg».proof.Proof.LibRowsProduct
import proofs.«129111_j67542655697275_2_alg».proof.Proof.Spec
import Idealize.ShloMosaic.Lib.Pipeline.Value
import Idealize.ShloMosaic.Lib.ValueIdx

noncomputable section

open scoped BigOperators

namespace Cert.KernelIdeal.Bodies

open Cert.KernelIdeal Idealize.ShloMosaic Idealize.SL.Sem Idealize.ShloMosaic.ValueIdx
open Cert.KernelIdeal.Gen (k0_pay1 k1_pay1)
open Cert.NeighbourMean
open Cert.KernelIdeal.Facts₀ Cert.KernelIdeal.Facts

/-- `[5000,128] · [128,128]` into zeros, at `(p, k)`. -/
theorem product_first (A : FVec Ideal S5000x128 .bf16) (B : FVec Ideal S128x128 .bf16) (p : Fin 5000) (k : Fin 128) :
    matmul dot_S5000x128_S128x128_S5000x128_1_0_0_1_n_n none A B (constant (F := Ideal) S5000x128 .f32 0x00000000#32) (ix2 p k)
      = ∑ c : Fin 128, A (ix2 p c) * B (ix2 c k) :=
  Cert.PlainProduct.matmul_nn_apply dot_S5000x128_S128x128_S5000x128_1_0_0_1_n_n_wf none A B p k

/-- `[5000,128] · [128,64]` into zeros, at `(p, q)`. -/
theorem product_second (A : FVec Ideal S5000x128 .bf16) (B : FVec Ideal S128x64 .bf16) (p : Fin 5000) (q : Fin 64) :
    matmul dot_S5000x128_S128x64_S5000x64_1_0_0_1_n_n none A B (constant (F := Ideal) S5000x64 .f32 0x00000000#32) (ix2 p q)
      = ∑ k : Fin 128, A (ix2 p k) * B (ix2 k q) :=
  Cert.PlainProduct.matmul_nn_apply dot_S5000x128_S128x64_S5000x64_1_0_0_1_n_n_wf none A B p q

/-- The degree column spread over 128 columns. -/
theorem spread_col128 (v : FVec Ideal S5000x1 .f32) (p : Fin 5000) (c : Fin 128) :
    broadcastTo S5000x128 v broadcasts_S5000x1_S5000x128 (ix2 p c) = v (ix2 p 0) :=
  Cert.Layout.broadcastTo_a1_ab_apply v broadcasts_S5000x1_S5000x128 p c

/-- The degree column spread over 64 columns. -/
theorem spread_col64 (v : FVec Ideal S5000x1 .f32) (p : Fin 5000) (c : Fin 64) :
    broadcastTo S5000x64 v broadcasts_S5000x1_S5000x64 (ix2 p c) = v (ix2 p 0) :=
  Cert.Layout.broadcastTo_a1_ab_apply v broadcasts_S5000x1_S5000x64 p c

/-- The row `b1` spread over the 5000 rows. -/
theorem spread_row128 (v : FVec Ideal S1x128 .f32) (p : Fin 5000) (k : Fin 128) :
    broadcastTo S5000x128 v broadcasts_S1x128_S5000x128 (ix2 p k) = v (ix2 0 k) :=
  Cert.RowsProduct.broadcastTo_1n_an_apply v broadcasts_S1x128_S5000x128 p k

/-- The row `b2` spread over the 5000 rows. -/
theorem spread_row64 (v : FVec Ideal S1x64 .f32) (p : Fin 5000) (q : Fin 64) :
    broadcastTo S5000x64 v broadcasts_S1x64_S5000x64 (ix2 p q) = v (ix2 0 q) :=
  Cert.RowsProduct.broadcastTo_1n_an_apply v broadcasts_S1x64_S5000x64 p q

/-- THE FIRST BODY at `(p, q)`. -/
theorem pay_first (v0 : Vec Ideal S5000x1 .f32) (v2 : Vec Ideal S5000x128 .f32) (v9 : Vec Ideal S128x128 .f32)
    (v12 : Vec Ideal S1x128 .f32) (v19 : Vec Ideal S128x64 .f32) (p : Fin 5000) (q : Fin 64) :
    k0_pay1 v0 v2 v9 v12 v19 (ix2 p q)
      = ∑ k : Fin 128, Max.max ((∑ c : Fin 128, Ideal.div (v2 (ix2 p c)) (Max.max (v0 (ix2 p 0)) one) * v9 (ix2 c k))
          + v12 (ix2 0 k)) zero * v19 (ix2 k q) := by
  unfold k0_pay1
  simp only [product_second, product_first, truncf_apply, maximumf_apply, addf_apply, divf_apply, broadcast_apply,
    spread_col128, spread_row128, shapeCast_self]
  rfl

/-- THE SECOND BODY at `(p, q)`. -/
theorem pay_second (v0 : Vec Ideal S5000x1 .f32) (v2 : Vec Ideal S5000x64 .f32) (v8 : Vec Ideal S1x64 .f32)
    (p : Fin 5000) (q : Fin 64) :
    k1_pay1 v0 v2 v8 (ix2 p q) = Ideal.div (v2 (ix2 p q)) (Max.max (v0 (ix2 p 0)) one) + v8 (ix2 0 q) := by
  unfold k1_pay1
  simp only [addf_apply, divf_apply, maximumf_apply, broadcast_apply, spread_col64, spread_row64, shapeCast_self]
  rfl

end Cert.KernelIdeal.Bodies

end
-- ==== Proof.KernelBlocks.lean ====
/-
  From blocks to whole arrays: what each of the two launches leaves in its output array.

  Both launches walk the 100000 nodes in twenty blocks of 5000 rows; point `t` reads rows `5000 t … 5000 t + 4999`
  of its row-blocked operands, the whole of its resident operands, and writes back rows `5000 t … 5000 t + 4999` of
  its output.  So entry `(n, j)` of the output array is the body's arithmetic on row `n` of the row-blocked operands:
  the blocks tile the array, each index lies in the block of point `n / 5000`.  This holds for whatever contents
  `V` the launch finds in its operand arrays.
-/
import proofs.«129111_j67542655697275_2_alg».proof.Proof.Gen.KernelIdeal.Frame
import proofs.«129111_j67542655697275_2_alg».proof.Proof.KernelBodies
import Idealize.ShloMosaic.Lib.Pipeline.Value

set_option maxRecDepth 16384

noncomputable section

open scoped BigOperators

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)
open Cert.NeighbourMean Cert.KernelIdeal.Bodies

variable (V : (c : Dev nD) → (b : Ref sig .tc) → Buf (Elt Ideal) ((c : Thread nD τ).loc b))

theorem hz : (![0, 0] : Fin 2 → Nat) = fun _ => 0 := funext fun a => by fin_cases a <;> rfl

/-! ## The first launch -/

/-- What the first launch's output array ends holding, as a function of its five operand arrays. -/
def firstOut (s : S100000x128.Idx → EReal) (d : S100000x1.Idx → EReal) (w1 : S128x128.Idx → EReal)
    (b : S1x128.Idx → EReal) (w2 : S128x64.Idx → EReal) : S100000x64.Idx → EReal :=
  tab fun n j => ∑ k : Fin 128, Max.max ((∑ c : Fin 128, Ideal.div (s (ix2 n c)) (Max.max (d (ix2 n 0)) one) * w1 (ix2 c k))
    + b (ix2 0 k)) zero * w2 (ix2 k j)

/-- The printed index maps over the twenty points: the row-blocked windows are at block `(t, 0)`, the resident ones
    at `(0, 0)`. -/
theorem idx_first : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem point_lt_first (t : Fin cfg0.N) : t.val < 20 := by
  have h := t.isLt
  have hN : cfg0.N = 20 := N_0
  omega

/-- Row `p` of point `t`'s block of the summed rows is row `5000 t + p` of the array. -/
theorem block_sum (c : Dev nD) (t : Fin cfg0.N) (p : Fin 5000) (cc : Fin 128) (hp : 5000 * t.val + p.val < 100000) :
    (iblk0 V c 0 t : Vec Ideal S5000x128 .f32) (ix2 p cc)
      = (V c (Pipeline.arrRef spec0 0) : S100000x128.Idx → EReal) (ix2 ⟨5000 * t.val + p.val, hp⟩ cc) := by
  obtain ⟨e0, e1, -⟩ := idx_first t
  unfold iblk0
  rw [View.read_apply]
  refine congrArg (V c (Pipeline.arrRef spec0 0)) ?_
  funext a
  apply Fin.ext
  match a with
  | ⟨0, _⟩ => show win0_0.index t (0 : Fin 2) * 5000 + 1 * p.val = 5000 * t.val + p.val; rw [e0]; omega
  | ⟨1, _⟩ => show win0_0.index t (1 : Fin 2) * 128 + 1 * cc.val = cc.val; rw [e1]; omega

/-- Row `p` of point `t`'s block of the degree column is row `5000 t + p` of the column. -/
theorem block_deg (c : Dev nD) (t : Fin cfg0.N) (p : Fin 5000) (hp : 5000 * t.val + p.val < 100000) :
    (iblk0 V c 1 t : Vec Ideal S5000x1 .f32) (ix2 p 0)
      = (V c (Pipeline.arrRef spec0 1) : S100000x1.Idx → EReal) (ix2 ⟨5000 * t.val + p.val, hp⟩ 0) := by
  obtain ⟨-, -, e0, e1, -⟩ := idx_first t
  unfold iblk0
  rw [View.read_apply]
  refine congrArg (V c (Pipeline.arrRef spec0 1)) ?_
  funext a
  apply Fin.ext
  match a with
  | ⟨0, _⟩ => show win0_1.index t (0 : Fin 2) * 5000 + 1 * p.val = 5000 * t.val + p.val; rw [e0]; omega
  | ⟨1, _⟩ => show win0_1.index t (1 : Fin 2) * 1 + 1 * 0 = 0; rw [e1]

/-- The resident operands' one block is the whole array. -/
theorem block_w1 (c : Dev nD) (t : Fin cfg0.N) (a b : Fin 128) :
    (iblk0 V c 2 t : Vec Ideal S128x128 .f32) (ix2 a b) = (V c (Pipeline.arrRef spec0 2) : S128x128.Idx → EReal) (ix2 a b) := by
  obtain ⟨-, -, -, -, e0, e1, -⟩ := idx_first t
  unfold iblk0
  rw [View.read_apply]
  refine congrArg (V c (Pipeline.arrRef spec0 2)) ?_
  funext x
  apply Fin.ext
  match x with
  | ⟨0, _⟩ => show win0_2.index t (0 : Fin 2) * 128 + 1 * a.val = a.val; rw [e0]; omega
  | ⟨1, _⟩ => show win0_2.index t (1 : Fin 2) * 128 + 1 * b.val = b.val; rw [e1]; omega

theorem block_b1 (c : Dev nD) (t : Fin cfg0.N) (b : Fin 128) :
    (iblk0 V c 3 t : Vec Ideal S1x128 .f32) (ix2 0 b) = (V c (Pipeline.arrRef spec0 3) : S1x128.Idx → EReal) (ix2 0 b) := by
  obtain ⟨-, -, -, -, -, -, e0, e1, -⟩ := idx_first t
  unfold iblk0
  rw [View.read_apply]
  refine congrArg (V c (Pipeline.arrRef spec0 3)) ?_
  funext x
  apply Fin.ext
  match x with
  | ⟨0, _⟩ => show win0_3.index t (0 : Fin 2) * 1 + 1 * 0 = 0; rw [e0]
  | ⟨1, _⟩ => show win0_3.index t (1 : Fin 2) * 128 + 1 * b.val = b.val; rw [e1]; omega

theorem block_w2 (c : Dev nD) (t : Fin cfg0.N) (a : Fin 128) (b : Fin 64) :
    (iblk0 V c 4 t : Vec Ideal S128x64 .f32) (ix2 a b) = (V c (Pipeline.arrRef spec0 4) : S128x64.Idx → EReal) (ix2 a b) := by
  obtain ⟨-, -, -, -, -, -, -, -, e0, e1, -⟩ := idx_first t
  unfold iblk0
  rw [View.read_apply]
  refine congrArg (V c (Pipeline.arrRef spec0 4)) ?_
  funext x
  apply Fin.ext
  match x with
  | ⟨0, _⟩ => show win0_4.index t (0 : Fin 2) * 128 + 1 * a.val = a.val; rw [e0]; omega
  | ⟨1, _⟩ => show win0_4.index t (1 : Fin 2) * 64 + 1 * b.val = b.val; rw [e1]; omega

/-- WHAT POINT `t` WRITES BACK is block `t` of `firstOut` of the operand arrays. -/
theorem flushed_first (c : Dev nD) (t : Fin cfg0.N) :
    (dat0 V c).flushed 5 t = ((cfg0.win 5).blk t).view.read (Elt Ideal)
      (firstOut (V c (Pipeline.arrRef spec0 0)) (V c (Pipeline.arrRef spec0 1)) (V c (Pipeline.arrRef spec0 2))
        (V c (Pipeline.arrRef spec0 3)) (V c (Pipeline.arrRef spec0 4))) := by
  show (cfg0.win 5).cut (grid0.coords t) ((dat0 V c).after 5 t) = _
  rw [after0_5]
  unfold out0_5
  rw [View.canon_unit_zero hz]
  simp only [View.ld_unit_zero (S := S5000x1) hz, View.ld_unit_zero (S := S5000x128) hz, View.ld_unit_zero (S := S128x128) hz,
    View.ld_unit_zero (S := S1x128) hz, View.ld_unit_zero (S := S128x64) hz]
  refine funext fun (j : S5000x64.Idx) => ?_
  obtain ⟨p, q, rfl⟩ : ∃ (p : Fin 5000) (q : Fin 64), j = ix2 p q := ⟨j 0, j 1, eq_ix2 j⟩
  have ht := point_lt_first t
  have hp : 5000 * t.val + p.val < 100000 := by have := p.isLt; omega
  obtain ⟨-, -, -, -, -, -, -, -, -, -, e0, e1⟩ := idx_first t
  have hemb : ((cfg0.win 5).blk t).view.emb (ix2 p q) = (ix2 ⟨5000 * t.val + p.val, hp⟩ q : S100000x64.Idx) := by
    funext a
    apply Fin.ext
    match a with
    | ⟨0, _⟩ => show win0_5.index t (0 : Fin 2) * 5000 + 1 * p.val = 5000 * t.val + p.val; rw [e0]; omega
    | ⟨1, _⟩ => show win0_5.index t (1 : Fin 2) * 64 + 1 * q.val = q.val; rw [e1]; omega
  rw [View.read_apply, hemb]
  unfold firstOut
  rw [tab_ix2]
  refine (pay_first (iblk0 V c 1 t) (iblk0 V c 0 t) (iblk0 V c 2 t) (iblk0 V c 3 t) (iblk0 V c 4 t) p q).trans ?_
  refine Finset.sum_congr rfl fun k _ => ?_
  refine congrArg₂ (· * ·) (congrArg₂ Max.max (congrArg₂ (· + ·) (Finset.sum_congr rfl fun c' _ => ?_) ?_) rfl) ?_
  · exact congrArg₂ (· * ·) (congrArg₂ Ideal.div (block_sum V c t p c' hp)
      (congrArg (Max.max · one) (block_deg V c t p hp))) (block_w1 V c t c' k)
  · exact block_b1 V c t k
  · exact block_w2 V c t k q

/-- An index of the output array is in point `t`'s block iff each coordinate is in the block's range. -/
theorem mem_blk_first (t : Fin cfg0.N) (i : S100000x64.Idx) :
    i ∈ ((cfg0.win 5).blk t).view.set ↔ ∀ a : Fin 2, win0_5.index t a * S5000x64.size a ≤ (i a).val
      ∧ (i a).val < win0_5.index t a * S5000x64.size a + S5000x64.size a := by
  show i ∈ ((View.whole main_v18).slice (win0_5.rect t)).set ↔ _
  rw [View.set_slice_whole, Rect.mem_set_unit]
  exact Iff.rfl

/-- Every index of the output array lies in the block of the point its row falls in. -/
theorem cover_first (i : S100000x64.Idx) :
    ∃ t : Fin cfg0.N, (cfg0.win 5).flush t = true ∧ i ∈ ((cfg0.win 5).blk t).view.set := by
  have hi0 : (i 0).val < 100000 := (i 0).isLt
  have hi1 : (i 1).val < 64 := (i 1).isLt
  have hN : cfg0.N = 20 := N_0
  obtain ⟨t, htv⟩ : ∃ t : Fin cfg0.N, t.val = (i 0).val / 5000 := ⟨⟨(i 0).val / 5000, by rw [hN]; omega⟩, rfl⟩
  obtain ⟨-, -, -, -, -, -, -, -, -, -, e0, e1⟩ := idx_first t
  refine ⟨t, flush0_5 t, ?_⟩
  rw [mem_blk_first]
  intro a
  match a with
  | ⟨0, _⟩ =>
    show win0_5.index t (0 : Fin 2) * 5000 ≤ (i 0).val ∧ (i 0).val < win0_5.index t (0 : Fin 2) * 5000 + 5000
    rw [e0, htv]; omega
  | ⟨1, _⟩ =>
    show win0_5.index t (1 : Fin 2) * 64 ≤ (i 1).val ∧ (i 1).val < win0_5.index t (1 : Fin 2) * 64 + 64
    rw [e1]; omega

/-- THE FIRST LAUNCH'S OUTPUT ARRAY after its write-backs. -/
theorem final_first (c : Dev nD) :
    (dat0 V c).arrAt 5 cfg0.N = firstOut (V c (Pipeline.arrRef spec0 0)) (V c (Pipeline.arrRef spec0 1))
      (V c (Pipeline.arrRef spec0 2)) (V c (Pipeline.arrRef spec0 3)) (V c (Pipeline.arrRef spec0 4)) :=
  (dat0 V c).arrAt_eq_of_cover 5 _ (fun t _ => flushed_first V c t) cover_first

/-! ## The second launch -/

/-- What the second launch's output array ends holding, as a function of its three operand arrays. -/
def secondOut (s : S100000x64.Idx → EReal) (d : S100000x1.Idx → EReal) (b : S1x64.Idx → EReal) : S100000x64.Idx → EReal :=
  tab fun n j => Ideal.div (s (ix2 n j)) (Max.max (d (ix2 n 0)) one) + b (ix2 0 j)

theorem idx_second : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

theorem point_lt_second (t : Fin cfg1.N) : t.val < 20 := by
  have h := t.isLt
  have hN : cfg1.N = 20 := N_1
  omega

theorem block_proj (c : Dev nD) (t : Fin cfg1.N) (p : Fin 5000) (q : Fin 64) (hp : 5000 * t.val + p.val < 100000) :
    (iblk1 V c 0 t : Vec Ideal S5000x64 .f32) (ix2 p q)
      = (V c (Pipeline.arrRef spec1 0) : S100000x64.Idx → EReal) (ix2 ⟨5000 * t.val + p.val, hp⟩ q) := by
  obtain ⟨e0, e1, -⟩ := idx_second t
  unfold iblk1
  rw [View.read_apply]
  refine congrArg (V c (Pipeline.arrRef spec1 0)) ?_
  funext a
  apply Fin.ext
  match a with
  | ⟨0, _⟩ => show win1_0.index t (0 : Fin 2) * 5000 + 1 * p.val = 5000 * t.val + p.val; rw [e0]; omega
  | ⟨1, _⟩ => show win1_0.index t (1 : Fin 2) * 64 + 1 * q.val = q.val; rw [e1]; omega

theorem block_deg2 (c : Dev nD) (t : Fin cfg1.N) (p : Fin 5000) (hp : 5000 * t.val + p.val < 100000) :
    (iblk1 V c 1 t : Vec Ideal S5000x1 .f32) (ix2 p 0)
      = (V c (Pipeline.arrRef spec1 1) : S100000x1.Idx → EReal) (ix2 ⟨5000 * t.val + p.val, hp⟩ 0) := by
  obtain ⟨-, -, e0, e1, -⟩ := idx_second t
  unfold iblk1
  rw [View.read_apply]
  refine congrArg (V c (Pipeline.arrRef spec1 1)) ?_
  funext a
  apply Fin.ext
  match a with
  | ⟨0, _⟩ => show win1_1.index t (0 : Fin 2) * 5000 + 1 * p.val = 5000 * t.val + p.val; rw [e0]; omega
  | ⟨1, _⟩ => show win1_1.index t (1 : Fin 2) * 1 + 1 * 0 = 0; rw [e1]

theorem block_b2 (c : Dev nD) (t : Fin cfg1.N) (b : Fin 64) :
    (iblk1 V c 2 t : Vec Ideal S1x64 .f32) (ix2 0 b) = (V c (Pipeline.arrRef spec1 2) : S1x64.Idx → EReal) (ix2 0 b) := by
  obtain ⟨-, -, -, -, e0, e1, -⟩ := idx_second t
  unfold iblk1
  rw [View.read_apply]
  refine congrArg (V c (Pipeline.arrRef spec1 2)) ?_
  funext x
  apply Fin.ext
  match x with
  | ⟨0, _⟩ => show win1_2.index t (0 : Fin 2) * 1 + 1 * 0 = 0; rw [e0]
  | ⟨1, _⟩ => show win1_2.index t (1 : Fin 2) * 64 + 1 * b.val = b.val; rw [e1]; omega

theorem flushed_second (c : Dev nD) (t : Fin cfg1.N) :
    (dat1 V c).flushed 3 t = ((cfg1.win 3).blk t).view.read (Elt Ideal)
      (secondOut (V c (Pipeline.arrRef spec1 0)) (V c (Pipeline.arrRef spec1 1)) (V c (Pipeline.arrRef spec1 2))) := by
  show (cfg1.win 3).cut (grid1.coords t) ((dat1 V c).after 3 t) = _
  rw [after1_3]
  unfold out1_3
  rw [View.canon_unit_zero hz]
  simp only [View.ld_unit_zero (S := S5000x1) hz, View.ld_unit_zero (S := S5000x64) hz, View.ld_unit_zero (S := S1x64) hz]
  refine funext fun (j : S5000x64.Idx) => ?_
  obtain ⟨p, q, rfl⟩ : ∃ (p : Fin 5000) (q : Fin 64), j = ix2 p q := ⟨j 0, j 1, eq_ix2 j⟩
  have ht := point_lt_second t
  have hp : 5000 * t.val + p.val < 100000 := by have := p.isLt; omega
  obtain ⟨-, -, -, -, -, -, e0, e1⟩ := idx_second t
  have hemb : ((cfg1.win 3).blk t).view.emb (ix2 p q) = (ix2 ⟨5000 * t.val + p.val, hp⟩ q : S100000x64.Idx) := by
    funext a
    apply Fin.ext
    match a with
    | ⟨0, _⟩ => show win1_3.index t (0 : Fin 2) * 5000 + 1 * p.val = 5000 * t.val + p.val; rw [e0]; omega
    | ⟨1, _⟩ => show win1_3.index t (1 : Fin 2) * 64 + 1 * q.val = q.val; rw [e1]; omega
  rw [View.read_apply, hemb]
  unfold secondOut
  rw [tab_ix2]
  refine (pay_second (iblk1 V c 1 t) (iblk1 V c 0 t) (iblk1 V c 2 t) p q).trans ?_
  exact congrArg₂ (· + ·) (congrArg₂ Ideal.div (block_proj V c t p q hp)
    (congrArg (Max.max · one) (block_deg2 V c t p hp))) (block_b2 V c t q)

theorem mem_blk_second (t : Fin cfg1.N) (i : S100000x64.Idx) :
    i ∈ ((cfg1.win 3).blk t).view.set ↔ ∀ a : Fin 2, win1_3.index t a * S5000x64.size a ≤ (i a).val
      ∧ (i a).val < win1_3.index t a * S5000x64.size a + S5000x64.size a := by
  show i ∈ ((View.whole main_v32).slice (win1_3.rect t)).set ↔ _
  rw [View.set_slice_whole, Rect.mem_set_unit]
  exact Iff.rfl

theorem cover_second (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  have hN : cfg1.N = 20 := N_1
  obtain ⟨t, htv⟩ : ∃ t : Fin cfg1.N, t.val = (i 0).val / 5000 := ⟨⟨(i 0).val / 5000, by rw [hN]; omega⟩, rfl⟩
  obtain ⟨-, -, -, -, -, -, e0, e1⟩ := idx_second t
  refine ⟨t, flush1_3 t, ?_⟩
  rw [mem_blk_second]
  intro a
  match a with
  | ⟨0, _⟩ =>
    show win1_3.index t (0 : Fin 2) * 5000 ≤ (i 0).val ∧ (i 0).val < win1_3.index t (0 : Fin 2) * 5000 + 5000
    rw [e0, htv]; omega
  | ⟨1, _⟩ =>
    show win1_3.index t (1 : Fin 2) * 64 ≤ (i 1).val ∧ (i 1).val < win1_3.index t (1 : Fin 2) * 64 + 64
    rw [e1]; omega

/-- THE SECOND LAUNCH'S OUTPUT ARRAY after its write-backs. -/
theorem final_second (c : Dev nD) :
    (dat1 V c).arrAt 3 cfg1.N = secondOut (V c (Pipeline.arrRef spec1 0)) (V c (Pipeline.arrRef spec1 1))
      (V c (Pipeline.arrRef spec1 2)) :=
  (dat1 V c).arrAt_eq_of_cover 3 _ (fun t _ => flushed_second V c t) cover_second

end Cert.KernelIdeal.Blocks

end
-- ==== Proof.KernelGlue.lean ====
/-
  The host operations around the kernel's two launches, and the kernel's whole function of its arguments.

  Before the first launch the host computes, from the edge lists: the source column (each source integer, a negative
  one shifted up by the node count), the destination column, the nodes' in-degree (ones added along the destination
  column) as a column, the feature rows gathered along the source column and added along the destination column,
  and `b1` as a row.  Between the launches it gathers and adds the first launch's output rows the same way, and lays
  `b2` out as a row.  The changes of float format around each gather are the identity at the ideal values.

  Read at an index: a gather of rows then a scatter-add of rows is "the arriving rows, summed" of the specification,
  so the first launch's operands give it the projected first layer `proj`, and the second launch's operands give it
  the "projected rows averaged" arrangement.
-/
import proofs.«129111_j67542655697275_2_alg».proof.KernelIdeal
import proofs.«129111_j67542655697275_2_alg».proof.Proof.Gen.KernelIdeal
import proofs.«129111_j67542655697275_2_alg».proof.Proof.Spec
import proofs.«129111_j67542655697275_2_alg».proof.Proof.KernelBlocks
import Idealize.ShloMosaic.Lib.Pipeline.Value
import Idealize.ShloMosaic.Lib.ValueIdx

noncomputable section

open scoped BigOperators

namespace Cert.KernelIdeal.Glue

open Cert.KernelIdeal Idealize.ShloMosaic Idealize.SL.Sem Idealize.ShloMosaic.ValueIdx
open Cert.RowGatherScatter Cert.NeighbourMean
open Cert.KernelIdeal.Blocks (firstOut secondOut)
open Cert.KernelIdeal.Facts₀ Cert.KernelIdeal.Facts

/-! ## The stages -/

/-- The edges' source column: a negative source integer shifted up by the node count. -/
def srcCol (x5 : IVec S1600000 32) : IVec S1600000x1 32 :=
  broadcastInDim S1600000x1 ![0] bcast_S1600000_S1600000x1_0
    (select (cmpi .slt x5 (broadcastInDim S1600000 ![] bcast_S_S1600000 (constantI S_ 32 0#32)))
      (addi x5 (broadcastInDim S1600000 ![] bcast_S_S1600000 (constantI S_ 32 100000#32))) x5)

/-- The edges' destination column. -/
def dstCol (x6 : IVec S1600000 32) : IVec S1600000x1 32 :=
  broadcastInDim S1600000x1 ![0] bcast_S1600000_S1600000x1_0 x6

/-- The nodes' in-degree: ones added along the destination column. -/
def cntVec (x6 : IVec S1600000 32) : FVec Ideal S100000 .f32 :=
  Host.scatterAdd scatter_S100000_S1600000x1_S1600000_n_0_0_1
    (broadcastInDim S100000 ![] bcast_S_S100000 (constant (F := Ideal) S_ .f32 0x00000000#32)) (dstCol x6)
    (broadcastInDim S1600000 ![] bcast_S_S1600000 (constant (F := Ideal) S_ .f32 0x3F800000#32))

/-- … as a column. -/
def cntColumn (x6 : IVec S1600000 32) : FVec Ideal S100000x1 .f32 :=
  broadcastInDim S100000x1 ![0] bcast_S100000_S100000x1_0 (cntVec x6)

/-- The rows of a 128-wide node table gathered along the sources and added along the destinations. -/
def summed128 (x : FVec Ideal S100000x128 .f32) (x5 x6 : IVec S1600000 32) : FVec Ideal S100000x128 .f32 :=
  Host.scatterAdd scatter_S100000x128_S1600000x1_S1600000x128_1_0_0_1
    (broadcastInDim S100000x128 ![] bcast_S_S100000x128 (constant (F := Ideal) S_ .f32 0x00000000#32)) (dstCol x6)
    (extf .f32 (Host.gather gather_S100000x128_S1600000x1_S1600000x128_1_0_n_n_0_1_1128 (truncf .bf16 x bitsLt_bf16_f32)
      (srcCol x5)) bitsLt_bf16_f32)

/-- The same for a 64-wide node table. -/
def summed64 (x : FVec Ideal S100000x64 .f32) (x5 x6 : IVec S1600000 32) : FVec Ideal S100000x64 .f32 :=
  Host.scatterAdd scatter_S100000x64_S1600000x1_S1600000x64_1_0_0_1
    (broadcastInDim S100000x64 ![] bcast_S_S100000x64 (constant (F := Ideal) S_ .f32 0x00000000#32)) (dstCol x6)
    (extf .f32 (Host.gather gather_S100000x64_S1600000x1_S1600000x64_1_0_n_n_0_1_164 (truncf .bf16 x bitsLt_bf16_f32)
      (srcCol x5)) bitsLt_bf16_f32)

/-- `b1` and `b2` as rows. -/
def biasRow128 (x2 : FVec Ideal S128 .f32) : FVec Ideal S1x128 .f32 := broadcastInDim S1x128 ![1] bcast_S128_S1x128_1 x2
def biasRow64 (x4 : FVec Ideal S64 .f32) : FVec Ideal S1x64 .f32 := broadcastInDim S1x64 ![1] bcast_S64_S1x64_1 x4

/-! ## Each stage at an index -/

theorem zeros128_apply (i : S100000x128.Idx) :
    broadcastInDim S100000x128 ![] bcast_S_S100000x128 (constant (F := Ideal) S_ .f32 0x00000000#32) i = zero :=
  broadcastInDim_apply _ bcast_S_S100000x128 _ i (fun a => a.elim0) (fun a => a.elim0)

theorem zeros64_apply (i : S100000x64.Idx) :
    broadcastInDim S100000x64 ![] bcast_S_S100000x64 (constant (F := Ideal) S_ .f32 0x00000000#32) i = zero :=
  broadcastInDim_apply _ bcast_S_S100000x64 _ i (fun a => a.elim0) (fun a => a.elim0)

theorem summed128_apply (x : FVec Ideal S100000x128 .f32) (x5 x6 : IVec S1600000 32) (n : Fin 100000) (c : Fin 128) :
    summed128 x x5 x6 (ix2 n c) = agg (srcCol x5) (dstCol x6) x n c := by
  unfold summed128
  refine (scatterAdd_rows_apply scatter_S100000x128_S1600000x1_S1600000x128_1_0_0_1_wf _ _ _ n c).trans ?_
  unfold agg
  refine congrArg₂ (· + ·) (zeros128_apply _) (Finset.sum_congr rfl fun e _ => ?_)
  exact gather_rows_apply (by decide) gather_S100000x128_S1600000x1_S1600000x128_1_0_n_n_0_1_1128_wf
    (truncf .bf16 x bitsLt_bf16_f32) (srcCol x5) e c

theorem summed64_apply (x : FVec Ideal S100000x64 .f32) (x5 x6 : IVec S1600000 32) (n : Fin 100000) (j : Fin 64) :
    summed64 x x5 x6 (ix2 n j) = agg (srcCol x5) (dstCol x6) x n j := by
  unfold summed64
  refine (scatterAdd_rows_apply scatter_S100000x64_S1600000x1_S1600000x64_1_0_0_1_wf _ _ _ n j).trans ?_
  unfold agg
  refine congrArg₂ (· + ·) (zeros64_apply _) (Finset.sum_congr rfl fun e _ => ?_)
  exact gather_rows_apply (by decide) gather_S100000x64_S1600000x1_S1600000x64_1_0_n_n_0_1_164_wf
    (truncf .bf16 x bitsLt_bf16_f32) (srcCol x5) e j

theorem cntColumn_apply (x6 : IVec S1600000 32) (n : Fin 100000) : cntColumn x6 (ix2 n 0) = cntVec x6 (ix1 n) :=
  broadcastInDim_apply _ bcast_S100000_S100000x1_0 (cntVec x6) (ix2 n 0) (ix1 n) (fun a => match a with
    | ⟨0, _⟩ => by show n.val = if (100000 : Nat) = 1 then 0 else n.val; rw [if_neg (by decide)])

theorem biasRow128_apply (x2 : FVec Ideal S128 .f32) (k : Fin 128) : biasRow128 x2 (ix2 0 k) = x2 (ix1 k) :=
  broadcastInDim_apply _ bcast_S128_S1x128_1 x2 (ix2 0 k) (ix1 k) (fun a => match a with
    | ⟨0, _⟩ => by show k.val = if (128 : Nat) = 1 then 0 else k.val; rw [if_neg (by decide)])

theorem biasRow64_apply (x4 : FVec Ideal S64 .f32) (j : Fin 64) : biasRow64 x4 (ix2 0 j) = x4 (ix1 j) :=
  broadcastInDim_apply _ bcast_S64_S1x64_1 x4 (ix2 0 j) (ix1 j) (fun a => match a with
    | ⟨0, _⟩ => by show j.val = if (64 : Nat) = 1 then 0 else j.val; rw [if_neg (by decide)])

/-! ## The kernel's whole function -/

section Whole

variable (x0 : FVec Ideal S100000x128 .f32) (x1 : FVec Ideal S128x128 .f32) (x2 : FVec Ideal S128 .f32)
  (x3 : FVec Ideal S128x64 .f32) (x4 : FVec Ideal S64 .f32) (x5 x6 : IVec S1600000 32)

/-- What the first launch leaves, from the arguments. -/
def projected : FVec Ideal S100000x64 .f32 :=
  firstOut (summed128 x0 x5 x6) (cntColumn x6) x1 (biasRow128 x2) x3

/-- What the second launch leaves, from the arguments: the kernel's result. -/
def kernelOut : FVec Ideal S100000x64 .f32 :=
  secondOut (summed64 (projected x0 x1 x2 x3 x5 x6) x5 x6) (cntColumn x6) (biasRow64 x4)

/-- The first launch's output is the projected first layer. -/
theorem projected_eq :
    projected x0 x1 x2 x3 x5 x6 = tab (proj (srcCol x5) (dstCol x6) (cntVec x6) x0 x1 x2 x3) := by
  funext i
  obtain ⟨n, j, rfl⟩ : ∃ (n : Fin 100000) (j : Fin 64), i = ix2 n j := ⟨i 0, i 1, eq_ix2 i⟩
  unfold projected firstOut
  rw [tab_ix2, tab_ix2]
  unfold proj hid mean deg
  simp only [summed128_apply, cntColumn_apply, biasRow128_apply]

/-- THE KERNEL'S RESULT is the "projected rows averaged" arrangement. -/
theorem kernelOut_eq :
    kernelOut x0 x1 x2 x3 x4 x5 x6 = tab (outProjFirst (srcCol x5) (dstCol x6) (cntVec x6) x0 x1 x2 x3 x4) := by
  funext i
  obtain ⟨n, j, rfl⟩ : ∃ (n : Fin 100000) (j : Fin 64), i = ix2 n j := ⟨i 0, i 1, eq_ix2 i⟩
  unfold kernelOut secondOut
  rw [tab_ix2, tab_ix2, summed64_apply, cntColumn_apply, biasRow64_apply, projected_eq]
  rfl

end Whole

end Cert.KernelIdeal.Glue

end
-- ==== Proof.KernelValue.lean ====
/-
  The idealized kernel's result array as one function of the arguments.

  The fold of boundary contents, evaluated: the first launch finds in its operand arrays the summed arriving feature
  rows, the in-degree column, `W1`, `b1` as a row and `W2` (host operations of the launch memory), and leaves the
  projected first layer; the host then gathers and sums those rows along the edges; the second launch finds that sum,
  the same in-degree column (an input of the first launch, left as it was) and `b2` as a row, and leaves the result.
-/
import proofs.«129111_j67542655697275_2_alg».proof.Proof.KernelRun
import proofs.«129111_j67542655697275_2_alg».proof.Proof.KernelGlue
import Idealize.ShloMosaic.Lib.StableHlo.Run

set_option maxRecDepth 16384

noncomputable section

namespace Cert.KernelIdeal.Whole

open Cert.KernelIdeal Cert.KernelIdeal.Gen Idealize.ShloMosaic Idealize.ShloMosaic.TcCoe Idealize.SL.Sem
open Idealize.ShloMosaic.StableHlo
open Cert.KernelIdeal.Glue Cert.KernelIdeal.Blocks

variable (m : (ℓ : Loc nD τ sig) → Buf (Elt Ideal) ℓ) (ρ : Dev nD → PrngReg)

/-! ## What the first launch finds -/

set_option maxHeartbeats 2000000 in
theorem entry_sum (c : Dev nD) :
    V1 m ρ c (Pipeline.arrRef spec0 0) = summed128 (m ((c.tc : Thread nD τ).loc main_arg0))
      (m ((c.tc : Thread nD τ).loc main_arg5)) (m ((c.tc : Thread nD τ).loc main_arg6)) := by
  show StableHlo.after hostOps0 (W0 m ρ c) (Proc.devRef .tc main_v16) = _
  dsimp only [hostOps0]
  after_results_simp <;> rfl

set_option maxHeartbeats 2000000 in
theorem entry_cnt (c : Dev nD) :
    V1 m ρ c (Pipeline.arrRef spec0 1) = cntColumn (m ((c.tc : Thread nD τ).loc main_arg6)) := by
  show StableHlo.after hostOps0 (W0 m ρ c) (Proc.devRef .tc main_v4) = _
  dsimp only [hostOps0]
  after_results_simp <;> rfl

set_option maxHeartbeats 2000000 in
theorem entry_w1 (c : Dev nD) : V1 m ρ c (Pipeline.arrRef spec0 2) = m ((c.tc : Thread nD τ).loc main_arg1) := by
  show StableHlo.after hostOps0 (W0 m ρ c) (Proc.devRef .tc main_arg1) = _
  dsimp only [hostOps0]
  after_results_simp <;> rfl

set_option maxHeartbeats 2000000 in
theorem entry_b1 (c : Dev nD) :
    V1 m ρ c (Pipeline.arrRef spec0 3) = biasRow128 (m ((c.tc : Thread nD τ).loc main_arg2)) := by
  show StableHlo.after hostOps0 (W0 m ρ c) (Proc.devRef .tc main_v17) = _
  dsimp only [hostOps0]
  after_results_simp <;> rfl

set_option maxHeartbeats 2000000 in
theorem entry_w2 (c : Dev nD) : V1 m ρ c (Pipeline.arrRef spec0 4) = m ((c.tc : Thread nD τ).loc main_arg3) := by
  show StableHlo.after hostOps0 (W0 m ρ c) (Proc.devRef .tc main_arg3) = _
  dsimp only [hostOps0]
  after_results_simp <;> rfl

/-! ## What it leaves, and what else the host reads afterwards -/

set_option maxHeartbeats 2000000 in
/-- The first launch's output array: the projected first layer. -/
theorem first_result (c : Dev nD) :
    W2 m ρ c (Proc.devRef .tc main_v18) = projected (m ((c.tc : Thread nD τ).loc main_arg0))
      (m ((c.tc : Thread nD τ).loc main_arg1)) (m ((c.tc : Thread nD τ).loc main_arg2))
      (m ((c.tc : Thread nD τ).loc main_arg3)) (m ((c.tc : Thread nD τ).loc main_arg5))
      (m ((c.tc : Thread nD τ).loc main_arg6)) := by
  refine (W2_arr m ρ c 5).trans ((final_first (V1 m ρ) c).trans ?_)
  unfold projected
  rw [entry_sum m ρ c, entry_cnt m ρ c, entry_w1 m ρ c, entry_b1 m ρ c, entry_w2 m ρ c]

/-- The in-degree column is an input of the first launch: it leaves it as it found it. -/
theorem kept_cnt (c : Dev nD) :
    W2 m ρ c (Proc.devRef .tc main_v4) = cntColumn (m ((c.tc : Thread nD τ).loc main_arg6)) :=
  (W2_arr m ρ c 1).trans (((dat0 (V1 m ρ) c).arrAt_in 1 rfl _).trans ((A_eq0 (V1 m ρ) c 1).trans (entry_cnt m ρ c)))

set_option maxHeartbeats 2000000 in
/-- The edge lists and `b2` are no array of the first launch and no result of the first host stretch. -/
theorem kept_src (c : Dev nD) : W2 m ρ c (Proc.devRef .tc main_arg5) = m ((c.tc : Thread nD τ).loc main_arg5) := by
  refine (W2_of_ne m ρ c main_arg5 (by decide)).trans ?_
  show StableHlo.after hostOps0 (W0 m ρ c) (Proc.devRef .tc main_arg5) = _
  dsimp only [hostOps0]
  after_results_simp <;> rfl

set_option maxHeartbeats 2000000 in
theorem kept_dst (c : Dev nD) : W2 m ρ c (Proc.devRef .tc main_arg6) = m ((c.tc : Thread nD τ).loc main_arg6) := by
  refine (W2_of_ne m ρ c main_arg6 (by decide)).trans ?_
  show StableHlo.after hostOps0 (W0 m ρ c) (Proc.devRef .tc main_arg6) = _
  dsimp only [hostOps0]
  after_results_simp <;> rfl

set_option maxHeartbeats 2000000 in
theorem kept_b2 (c : Dev nD) : W2 m ρ c (Proc.devRef .tc main_arg4) = m ((c.tc : Thread nD τ).loc main_arg4) := by
  refine (W2_of_ne m ρ c main_arg4 (by decide)).trans ?_
  show StableHlo.after hostOps0 (W0 m ρ c) (Proc.devRef .tc main_arg4) = _
  dsimp only [hostOps0]
  after_results_simp <;> rfl

/-! ## What the second launch finds -/

set_option maxHeartbeats 2000000 in
theorem entry_proj (c : Dev nD) :
    V3 m ρ c (Pipeline.arrRef spec1 0) = summed64 (projected (m ((c.tc : Thread nD τ).loc main_arg0))
      (m ((c.tc : Thread nD τ).loc main_arg1)) (m ((c.tc : Thread nD τ).loc main_arg2))
      (m ((c.tc : Thread nD τ).loc main_arg3)) (m ((c.tc : Thread nD τ).loc main_arg5))
      (m ((c.tc : Thread nD τ).loc main_arg6))) (m ((c.tc : Thread nD τ).loc main_arg5))
      (m ((c.tc : Thread nD τ).loc main_arg6)) := by
  show StableHlo.after hostOps1 (W2 m ρ c) (Proc.devRef .tc main_v30) = _
  dsimp only [hostOps1]
  after_results_simp
  rw [first_result m ρ c, kept_src m ρ c, kept_dst m ρ c]
  rfl

set_option maxHeartbeats 2000000 in
theorem entry_cnt2 (c : Dev nD) :
    V3 m ρ c (Pipeline.arrRef spec1 1) = cntColumn (m ((c.tc : Thread nD τ).loc main_arg6)) := by
  show StableHlo.after hostOps1 (W2 m ρ c) (Proc.devRef .tc main_v4) = _
  dsimp only [hostOps1]
  after_results_simp
  exact kept_cnt m ρ c

set_option maxHeartbeats 2000000 in
theorem entry_b2 (c : Dev nD) :
    V3 m ρ c (Pipeline.arrRef spec1 2) = biasRow64 (m ((c.tc : Thread nD τ).loc main_arg4)) := by
  show StableHlo.after hostOps1 (W2 m ρ c) (Proc.devRef .tc main_v31) = _
  dsimp only [hostOps1]
  after_results_simp
  rw [kept_b2 m ρ c]
  rfl

/-! ## The result -/

/-- The fold ends, at the result array, at the kernel's whole function of the arguments. -/
theorem result_fold (c : Dev nD) :
    W4 m ρ c (Proc.devRef .tc main_v32) = kernelOut (m ((c.tc : Thread nD τ).loc main_arg0))
      (m ((c.tc : Thread nD τ).loc main_arg1)) (m ((c.tc : Thread nD τ).loc main_arg2))
      (m ((c.tc : Thread nD τ).loc main_arg3)) (m ((c.tc : Thread nD τ).loc main_arg4))
      (m ((c.tc : Thread nD τ).loc main_arg5)) (m ((c.tc : Thread nD τ).loc main_arg6)) := by
  refine (fold_result m ρ c).trans ((final_second (V3 m ρ) c).trans ?_)
  unfold kernelOut
  rw [entry_proj m ρ c, entry_cnt2 m ρ c, entry_b2 m ρ c]

/-- THE KERNEL'S RUN: every weakly fair execution terminates, nothing faulting, with the result array at
    `kernelOut` of the arguments and the arguments as launched. -/
theorem run_value : θ_run defs (onTc (τ := τ) (main (F := Ideal))) ⟨m, fun _ => 0, ρ⟩ (fun r => ∀ c : Dev nD,
      r.2.mem ((c.tc : Thread nD τ).loc main_v32) = kernelOut (m ((c.tc : Thread nD τ).loc main_arg0))
        (m ((c.tc : Thread nD τ).loc main_arg1)) (m ((c.tc : Thread nD τ).loc main_arg2))
        (m ((c.tc : Thread nD τ).loc main_arg3)) (m ((c.tc : Thread nD τ).loc main_arg4))
        (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (result_fold m ρ c), (h c).2⟩) (run_fold m ρ)

end Cert.KernelIdeal.Whole

end
-- ==== Proof.Finite.lean ====
/-
  From the precondition to real entries.

  The precondition says, for each of the five float inputs, that `|x| < +∞` holds at every entry, the five facts
  joined by `and` and each gathered over its array by an `and`-reduction from `true`.  An `and` that came out `true`
  had `true` on both sides; each reduction then makes its array's entries real.
-/
import proofs.«129111_j67542655697275_2_alg».proof.Pre_finite_inputs
import proofs.«129111_j67542655697275_2_alg».proof.Proof.Gen.Pre_finite_inputs
import proofs.«129111_j67542655697275_2_alg».proof.Proof.LibRealEntries

noncomputable section

namespace Cert.Pre_finite_inputs.Entries

open Cert.Pre_finite_inputs Idealize.ShloMosaic Cert.RealEntries
open Cert.Pre_finite_inputs.Facts

/-- THE PRECONDITION makes every entry of the five float inputs real. -/
theorem real_of_pre (a0 : FVec Ideal S100000x128 .f32) (a1 : FVec Ideal S128x128 .f32) (a2 : FVec Ideal S128 .f32)
    (a3 : FVec Ideal S128x64 .f32) (a4 : FVec Ideal S64 .f32) (a5 a6 : IVec S1600000 32)
    (h : fn (F := Ideal) a0 a1 a2 a3 a4 a5 a6 = fun _ => 1#1) :
    (∀ i, IsReal (a0 i)) ∧ (∀ i, IsReal (a1 i)) ∧ (∀ i, IsReal (a2 i)) ∧ (∀ i, IsReal (a3 i)) ∧ (∀ i, IsReal (a4 i)) := by
  have h0 := congrFun h ValueIdx.ix0
  dsimp only [fn, fn_part1] at h0
  obtain ⟨h0123, e4⟩ := IntOp.andi_eq_one.1 h0
  obtain ⟨h012, e3⟩ := IntOp.andi_eq_one.1 h0123
  obtain ⟨h01, e2⟩ := IntOp.andi_eq_one.1 h012
  obtain ⟨e0, e1⟩ := IntOp.andi_eq_one.1 h01
  exact ⟨entries_real a0 _ _ _ e0, entries_real a1 _ _ _ e1, entries_real a2 _ _ _ e2, entries_real a3 _ _ _ e3,
    entries_real a4 _ _ _ e4⟩

end Cert.Pre_finite_inputs.Entries

end
-- ==== Proof.lean ====
/-
  Two-layer neighbour-mean message passing over 100000 nodes and 1600000 edges: the kernel against its reference, at
  the ideal values.

  Both programs gather node rows along the edges' sources and add them along the edges' destinations, divide by the
  in-degree clipped below at one, and apply `W1`, `b1`, the positive part, `W2` and `b2`.  They differ in the second
  layer only: the reference averages the hidden rows and then applies `W2`; the kernel applies `W2` to every hidden
  row first (inside its first launch), averages the projected rows, and adds `b2` in its second launch.  Averaging is
  linear, so the two agree wherever the hidden rows and `W2` are real numbers — which the precondition gives, since
  the hidden rows are built from the real features, `W1` and `b1` by sums, products, a division by a number at least
  one and a maximum with zero.  The integer edge lists are unconstrained: an out-of-range destination is dropped and
  a source is brought into range, in the same way in both programs.

  The kernel's result as a function of the arguments is read off its run (two launches of twenty row blocks each
  among host operations); the reference's is its run read one operation at a time.  The two frames of the kernels are
  the generated ones; the reference's frame is its run with the result dropped; no operation was rewritten when the
  kernel was idealized.
-/
import proofs.«129111_j67542655697275_2_alg».proof.Defs
import proofs.«129111_j67542655697275_2_alg».proof.Proof.Gen.Kernel
import proofs.«129111_j67542655697275_2_alg».proof.Proof.Gen.Kernel.Skeleton
import proofs.«129111_j67542655697275_2_alg».proof.Proof.Gen.Kernel.Launch
import proofs.«129111_j67542655697275_2_alg».proof.Proof.Gen.Kernel.Points
import proofs.«129111_j67542655697275_2_alg».proof.Proof.Gen.Kernel.Frame
import proofs.«129111_j67542655697275_2_alg».proof.Proof.Gen.KernelIdeal
import proofs.«129111_j67542655697275_2_alg».proof.Proof.Gen.KernelIdeal.Skeleton
import proofs.«129111_j67542655697275_2_alg».proof.Proof.Gen.KernelIdeal.Launch
import proofs.«129111_j67542655697275_2_alg».proof.Proof.Gen.KernelIdeal.Points
import proofs.«129111_j67542655697275_2_alg».proof.Proof.Gen.KernelIdeal.Frame
import proofs.«129111_j67542655697275_2_alg».proof.Proof.Gen.ReferenceIdeal
import proofs.«129111_j67542655697275_2_alg».proof.Proof.Gen.ReferenceIdeal.Run
import proofs.«129111_j67542655697275_2_alg».proof.Proof.Gen.ReferenceIdeal.Read
import proofs.«129111_j67542655697275_2_alg».proof.Proof.Gen.Pre_finite_inputs
import proofs.«129111_j67542655697275_2_alg».proof.Proof.Spec
import proofs.«129111_j67542655697275_2_alg».proof.Proof.RefValue
import proofs.«129111_j67542655697275_2_alg».proof.Proof.KernelValue
import proofs.«129111_j67542655697275_2_alg».proof.Proof.Finite
import Idealize.ShloMosaic.Adequacy
import Idealize.ShloMosaic.Init

noncomputable section

namespace Cert.Proof

open Idealize.ShloMosaic Idealize.SL.Sem Idealize.ShloMosaic.ValueIdx Cert.NeighbourMean

/-! ## The two programs spell the edge columns and the in-degree alike -/

theorem srcCol_same (a5 : IVec Cert.KernelIdeal.S1600000 32) :
    Cert.ReferenceIdeal.Mean.srcCol a5 = Cert.KernelIdeal.Glue.srcCol a5 := rfl

theorem dstCol_same (a6 : IVec Cert.KernelIdeal.S1600000 32) :
    Cert.ReferenceIdeal.Mean.dstCol a6 = Cert.KernelIdeal.Glue.dstCol a6 := rfl

theorem cntVec_same (a6 : IVec Cert.KernelIdeal.S1600000 32) :
    Cert.ReferenceIdeal.Mean.cntVec a6 = Cert.KernelIdeal.Glue.cntVec a6 := rfl

/-! ## The claims -/

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at the "projected rows averaged" arrangement of arguments that agree: the
    kernel's by its run, the reference's because it ends at the "averaged rows projected" one, which is the same
    function where the features, `W1`, `b1` and `W2` are real. -/
theorem algebraic : Cert.algebraic_KernelIdeal_ReferenceIdeal := by
  intro m ρ m' ρ' hpre hagree
  refine ⟨_, Cert.KernelIdeal.Whole.run_value m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6⟩ := hagree c
  obtain ⟨r0, r1, r2, r3, -⟩ := Cert.Pre_finite_inputs.Entries.real_of_pre _ _ _ _ _ _ _ (hpre c)
  rw [Cert.ReferenceIdeal.Read.val_main_v46_eq, e0, e1, e2, e3, e4, e5, e6, Cert.ReferenceIdeal.Mean.result_eq,
    Cert.KernelIdeal.Glue.kernelOut_eq, srcCol_same, dstCol_same, cntVec_same]
  funext i
  obtain ⟨n, j, rfl⟩ : ∃ (n : Fin 100000) (j : Fin 64), i = ix2 n j := ⟨i 0, i 1, eq_ix2 i⟩
  rw [tab_ix2, tab_ix2]
  exact (outProjFirst_eq_outMeanFirst _ _ _ _ _ _ _ _ r0 r1 r2 r3 n j).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
